-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x4 : Shape := ⟨2, ![1000000, 4]⟩
abbrev S2x2500000 : Shape := ⟨2, ![2, 2500000]⟩
abbrev S64x4 : Shape := ⟨2, ![64, 4]⟩
abbrev S64 : Shape := ⟨1, ![64]⟩
abbrev S64x64 : Shape := ⟨2, ![64, 64]⟩
abbrev S1x64 : Shape := ⟨2, ![1, 64]⟩
abbrev S1 : Shape := ⟨1, ![1]⟩
abbrev S_ : Shape := ⟨0, ![]⟩

class Facts : Prop where
  bcast_S_S1000000x4 : S_.BroadcastsInDim S1000000x4 (![] : Fin 0 → Fin S1000000x4.rank)
  reducesTo_S1000000x4_S_d0_1 : S1000000x4.ReducesTo [0, 1] S_
  h_S_ : 0 < S_.numel
  bcast_S_S64x4 : S_.BroadcastsInDim S64x4 (![] : Fin 0 → Fin S64x4.rank)
  reducesTo_S64x4_S_d0_1 : S64x4.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S1x64 : S_.BroadcastsInDim S1x64 (![] : Fin 0 → Fin S1x64.rank)
  reducesTo_S1x64_S_d0_1 : S1x64.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg15 : FVec F S64 .f32) (main_arg16 : FVec F S1x64 .f32) (main_arg17 : FVec F S1 .f32) (main_v63 : IVec S_ 1) (main_v67 : IVec S_ 1) : IVec S_ 1 :=
  let main_v68 : IVec S_ 1 := andi main_v63 main_v67
  let main_v69 : FVec F S64 .f32 := Host.absf main_arg15
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S1x64 .f32 := Host.absf main_arg16
  let main_cst_28 : FVec F S_ .f32 := constant S_ .f32 0x7F800000#32
  let main_v75 : FVec F S1x64 .f32 := broadcastInDim S1x64 ![] bcast_S_S1x64 main_cst_28
  let main_v76 : IVec S1x64 1 := cmpf .olt main_v74 main_v75
  let main_c_29 : IVec S_ 1 := constantI S_ 1 1#1
  let main_v77 : IVec S_ 1 := (fun x v => Host.reduce IntOp.andi x v reducesTo_S1x64_S_d0_1 h_S_) main_v76 main_c_29
  let main_v78 : IVec S_ 1 := andi main_v73 main_v77
  let main_v79 : FVec F S1 .f32 := Host.absf main_arg17
  let main_cst_30 : FVec F S_ .f32 := constant S_ .f32 0x7F800000#32
  let main_v80 : FVec F S1 .f32 := broadcastInDim S1 ![] bcast_S_S1 main_cst_30
  let main_v81 : IVec S1 1 := cmpf .olt main_v79 main_v80
  let main_c_31 : IVec S_ 1 := constantI S_ 1 1#1
  let main_v82 : IVec S_ 1 := (fun x v => Host.reduce IntOp.andi x v reducesTo_S1_S_d0 h_S_) main_v81 main_c_31
  let main_v83 : IVec S_ 1 := andi main_v78 main_v82
  main_v83

def fn_part3 {F : FTy → Type} [FloatOps F] (main_arg12 : FVec F S64 .f32) (main_arg13 : FVec F S64 .f32) (main_arg14 : FVec F S64 .f32) (main_arg15 : FVec F S64 .f32) (main_arg16 : FVec F S1x64 .f32) (main_arg17 : FVec F S1 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64 .f32 := Host.absf main_arg12
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64 .f32 := Host.absf main_arg13
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64 .f32 := Host.absf main_arg14
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg15 main_arg16 main_arg17 main_v63 main_v67

def fn_part2 {F : FTy → Type} [FloatOps F] (main_arg8 : FVec F S64 .f32) (main_arg9 : FVec F S64x64 .f32) (main_arg10 : FVec F S64 .f32) (main_arg11 : FVec F S64x64 .f32) (main_arg12 : FVec F S64 .f32) (main_arg13 : FVec F S64 .f32) (main_arg14 : FVec F S64 .f32) (main_arg15 : FVec F S64 .f32) (main_arg16 : FVec F S1x64 .f32) (main_arg17 : FVec F S1 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg9
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x64 .f32 := Host.absf main_arg11
  let main_cst_18 : FVec F S_ .f32 := constant S_ .f32 0x7F800000#32
  let main_v50 : FVec F S64x64 .f32 := broadcastInDim S64x64 ![] bcast_S_S64x64 main_cst_18
  fn_part3 (F := F) main_arg12 main_arg13 main_arg14 main_arg15 main_arg16 main_arg17 main_v48 main_v49 main_v50

def fn_part1 {F : FTy → Type} [FloatOps F] (main_arg5 : FVec F S64 .f32) (main_arg6 : FVec F S64 .f32) (main_arg7 : FVec F S64 .f32) (main_arg8 : FVec F S64 .f32) (main_arg9 : FVec F S64x64 .f32) (main_arg10 : FVec F S64 .f32) (main_arg11 : FVec F S64x64 .f32) (main_arg12 : FVec F S64 .f32) (main_arg13 : FVec F S64 .f32) (main_arg14 : FVec F S64 .f32) (main_arg15 : FVec F S64 .f32) (main_arg16 : FVec F S1x64 .f32) (main_arg17 : FVec F S1 .f32) (main_v13 : IVec S_ 1) (main_v16 : IVec S64x4 1) : IVec S_ 1 :=
  let main_c_5 : IVec S_ 1 := constantI S_ 1 1#1
  let main_v17 : IVec S_ 1 := (fun x v => Host.reduce IntOp.andi x v reducesTo_S64x4_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_v33

def fn {F : FTy → Type} [FloatOps F] (main_arg0 : FVec F S1000000x4 .f32) (main_arg1 : IVec S2x2500000 32) (main_arg2 : FVec F S64x4 .f32) (main_arg3 : FVec F S64 .f32) (main_arg4 : FVec F S64x4 .f32) (main_arg5 : FVec F S64 .f32) (main_arg6 : FVec F S64 .f32) (main_arg7 : FVec F S64 .f32) (main_arg8 : FVec F S64 .f32) (main_arg9 : FVec F S64x64 .f32) (main_arg10 : FVec F S64 .f32) (main_arg11 : FVec F S64x64 .f32) (main_arg12 : FVec F S64 .f32) (main_arg13 : FVec F S64 .f32) (main_arg14 : FVec F S64 .f32) (main_arg15 : FVec F S64 .f32) (main_arg16 : FVec F S1x64 .f32) (main_arg17 : FVec F S1 .f32) : IVec S_ 1 :=
  let main_v0 : FVec F S1000000x4 .f32 := Host.absf main_arg0
  let main_cst : FVec F S_ .f32 := constant S_ .f32 0x7F800000#32
  let main_v1 : FVec F S1000000x4 .f32 := broadcastInDim S1000000x4 ![] bcast_S_S1000000x4 main_cst
  let main_v2 : IVec S1000000x4 1 := cmpf .olt main_v0 main_v1
  let main_c : IVec S_ 1 := constantI S_ 1 1#1
  let main_v3 : IVec S_ 1 := (fun x v => Host.reduce IntOp.andi x v reducesTo_S1000000x4_S_d0_1 h_S_) main_v2 main_c
  let main_v4 : FVec F S64x4 .f32 := Host.absf main_arg2
  let main_cst_0 : FVec F S_ .f32 := constant S_ .f32 0x7F800000#32
  let main_v5 : FVec F S64x4 .f32 := broadcastInDim S64x4 ![] bcast_S_S64x4 main_cst_0
  let main_v6 : IVec S64x4 1 := cmpf .olt main_v4 main_v5
  let main_c_1 : IVec S_ 1 := constantI S_ 1 1#1
  let main_v7 : IVec S_ 1 := (fun x v => Host.reduce IntOp.andi x v reducesTo_S64x4_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x4 .f32 := Host.absf main_arg4
  let main_cst_4 : FVec F S_ .f32 := constant S_ .f32 0x7F800000#32
  let main_v15 : FVec F S64x4 .f32 := broadcastInDim S64x4 ![] bcast_S_S64x4 main_cst_4
  let main_v16 : IVec S64x4 1 := cmpf .olt main_v14 main_v15
  fn_part1 (F := F) main_arg5 main_arg6 main_arg7 main_arg8 main_arg9 main_arg10 main_arg11 main_arg12 main_arg13 main_arg14 main_arg15 main_arg16 main_arg17 main_v13 main_v16
-- ==== Kernel.lean ====
abbrev S1000000x4 : Shape := ⟨2, ![1000000, 4]⟩
abbrev S2x2500000 : Shape := ⟨2, ![2, 2500000]⟩
abbrev S64x4 : Shape := ⟨2, ![64, 4]⟩
abbrev S64 : Shape := ⟨1, ![64]⟩
abbrev S64x64 : Shape := ⟨2, ![64, 64]⟩
abbrev S1x64 : Shape := ⟨2, ![1, 64]⟩
abbrev S1 : Shape := ⟨1, ![1]⟩
abbrev S1x2500000 : Shape := ⟨2, ![1, 2500000]⟩
abbrev S2500000 : Shape := ⟨1, ![2500000]⟩
abbrev S_ : Shape := ⟨0, ![]⟩
abbrev S1000000 : Shape := ⟨1, ![1000000]⟩
abbrev S2500000x1 : Shape := ⟨2, ![2500000, 1]⟩
abbrev S1000000x1 : Shape := ⟨2, ![1000000, 1]⟩
abbrev S2500000x4 : Shape := ⟨2, ![2500000, 4]⟩
abbrev S1000000x64 : Shape := ⟨2, ![1000000, 64]⟩
abbrev S10000x4 : Shape := ⟨2, ![10000, 4]⟩
abbrev S10000x64 : Shape := ⟨2, ![10000, 64]⟩
abbrev S4x64 : Shape := ⟨2, ![4, 64]⟩
abbrev S2500000x64 : Shape := ⟨2, ![2500000, 64]⟩
abbrev S1x1 : Shape := ⟨2, ![1, 1]⟩
abbrev S10000x1 : Shape := ⟨2, ![10000, 1]⟩
abbrev S64x1 : Shape := ⟨2, ![64, 1]⟩

abbrev nBuf : Space → Nat
  | .hbm => 79
  | .vmem => 32
  | .smem => 0
  | _ => 0

abbrev bufTy : (tb : Table) → Fin (tcTables nBuf tb) → BufTy
  | .hbm, ⟨0, _⟩ => ⟨S1000000x4, .f32⟩
  | .hbm, ⟨1, _⟩ => ⟨S2x2500000, .i32⟩
  | .hbm, ⟨2, _⟩ => ⟨S64x4, .f32⟩
  | .hbm, ⟨3, _⟩ => ⟨S64, .f32⟩
  | .hbm, ⟨4, _⟩ => ⟨S64x4, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S64x64, .f32⟩
  | .hbm, ⟨12, _⟩ => ⟨S64, .f32⟩
  | .hbm, ⟨13, _⟩ => ⟨S64, .f32⟩
  | .hbm, ⟨14, _⟩ => ⟨S64, .f32⟩
  | .hbm, ⟨15, _⟩ => ⟨S64, .f32⟩
  | .hbm, ⟨16, _⟩ => ⟨S1x64, .f32⟩
  | .hbm, ⟨17, _⟩ => ⟨S1, .f32⟩
  | .hbm, ⟨18, _⟩ => ⟨S1x2500000, .i32⟩
  | .hbm, ⟨19, _⟩ => ⟨S2500000, .i32⟩
  | .hbm, ⟨20, _⟩ => ⟨S1x2500000, .i32⟩
  | .hbm, ⟨21, _⟩ => ⟨S2500000, .i32⟩
  | .hbm, ⟨22, _⟩ => ⟨S_, .f32⟩
  | .hbm, ⟨23, _⟩ => ⟨S2500000, .f32⟩
  | .hbm, ⟨24, _⟩ => ⟨S_, .f32⟩
  | .hbm, ⟨25, _⟩ => ⟨S1000000, .f32⟩
  | .hbm, ⟨26, _⟩ => ⟨S2500000x1, .i32⟩
  | .hbm, ⟨27, _⟩ => ⟨S1000000, .f32⟩
  | .hbm, ⟨28, _⟩ => ⟨S_, .f32⟩
  | .hbm, ⟨29, _⟩ => ⟨S1000000, .f32⟩
  | .hbm, ⟨30, _⟩ => ⟨S1000000, .f32⟩
  | .hbm, ⟨31, _⟩ => ⟨S_, .f32⟩
  | .hbm, ⟨32, _⟩ => ⟨S1000000, .f32⟩
  | .hbm, ⟨33, _⟩ => ⟨S1000000, .f32⟩
  | .hbm, ⟨34, _⟩ => ⟨S1000000x1, .f32⟩
  | .hbm, ⟨35, _⟩ => ⟨S_, .i32⟩
  | .hbm, ⟨36, _⟩ => ⟨S2500000, .i32⟩
  | .hbm, ⟨37, _⟩ => ⟨S2500000, .i1⟩
  | .hbm, ⟨38, _⟩ => ⟨S_, .i32⟩
  | .hbm, ⟨39, _⟩ => ⟨S2500000, .i32⟩
  | .hbm, ⟨40, _⟩ => ⟨S2500000, .i32⟩
  | .hbm, ⟨41, _⟩ => ⟨S2500000, .i32⟩
  | .hbm, ⟨42, _⟩ => ⟨S2500000x1, .i32⟩
  | .hbm, ⟨43, _⟩ => ⟨S2500000x4, .f32⟩
  | .hbm, ⟨44, _⟩ => ⟨S_, .f32⟩
  | .hbm, ⟨45, _⟩ => ⟨S1000000x4, .f32⟩
  | .hbm, ⟨46, _⟩ => ⟨S2500000x1, .i32⟩
  | .hbm, ⟨47, _⟩ => ⟨S1000000x4, .f32⟩
  | .hbm, ⟨48, _⟩ => ⟨S1000000x4, .f32⟩
  | .hbm, ⟨49, _⟩ => ⟨S1000000x4, .f32⟩
  | .hbm, ⟨50, _⟩ => ⟨S1x64, .f32⟩
  | .hbm, ⟨51, _⟩ => ⟨S1x64, .f32⟩
  | .hbm, ⟨52, _⟩ => ⟨S1x64, .f32⟩
  | .hbm, ⟨53, _⟩ => ⟨S1x64, .f32⟩
  | .hbm, ⟨54, _⟩ => ⟨S1x64, .f32⟩
  | .hbm, ⟨55, _⟩ => ⟨S1000000x64, .f32⟩
  | .hbm, ⟨56, _⟩ => ⟨S_, .i32⟩
  | .hbm, ⟨57, _⟩ => ⟨S2500000, .i32⟩
  | .hbm, ⟨58, _⟩ => ⟨S2500000, .i1⟩
  | .hbm, ⟨59, _⟩ => ⟨S_, .i32⟩
  | .hbm, ⟨60, _⟩ => ⟨S2500000, .i32⟩
  | .hbm, ⟨61, _⟩ => ⟨S2500000, .i32⟩
  | .hbm, ⟨62, _⟩ => ⟨S2500000, .i32⟩
  | .hbm, ⟨63, _⟩ => ⟨S2500000x1, .i32⟩
  | .hbm, ⟨64, _⟩ => ⟨S2500000x64, .f32⟩
  | .hbm, ⟨65, _⟩ => ⟨S_, .f32⟩
  | .hbm, ⟨66, _⟩ => ⟨S1000000x64, .f32⟩
  | .hbm, ⟨67, _⟩ => ⟨S2500000x1, .i32⟩
  | .hbm, ⟨68, _⟩ => ⟨S1000000x64, .f32⟩
  | .hbm, ⟨69, _⟩ => ⟨S1000000x64, .f32⟩
  | .hbm, ⟨70, _⟩ => ⟨S1000000x64, .f32⟩
  | .hbm, ⟨71, _⟩ => ⟨S1x64, .f32⟩
  | .hbm, ⟨72, _⟩ => ⟨S1x64, .f32⟩
  | .hbm, ⟨73, _⟩ => ⟨S1x64, .f32⟩
  | .hbm, ⟨74, _⟩ => ⟨S1x64, .f32⟩
  | .hbm, ⟨75, _⟩ => ⟨S1x64, .f32⟩
  | .hbm, ⟨76, _⟩ => ⟨S1000000x64, .f32⟩
  | .hbm, ⟨77, _⟩ => ⟨S1x1, .f32⟩
  | .hbm, ⟨78, _⟩ => ⟨S1000000x1, .f32⟩
  | .local _ .vmem, ⟨0, _⟩ => ⟨S10000x4, .f32⟩
  | .local _ .vmem, ⟨1, _⟩ => ⟨S10000x4, .f32⟩
  | .local _ .vmem, ⟨2, _⟩ => ⟨S10000x4, .f32⟩
  | .local _ .vmem, ⟨3, _⟩ => ⟨S10000x4, .f32⟩
  | .local _ .vmem, ⟨4, _⟩ => ⟨S64x4, .f32⟩
  | .local _ .vmem, ⟨5, _⟩ => ⟨S64x4, .f32⟩
  | .local _ .vmem, ⟨6, _⟩ => ⟨S1x64, .f32⟩
  | .local _ .vmem, ⟨7, _⟩ => ⟨S1x64, .f32⟩
  | .local _ .vmem, ⟨8, _⟩ => ⟨S1x64, .f32⟩
  | .local _ .vmem, ⟨9, _⟩ => ⟨S1x64, .f32⟩
  | .local _ .vmem, ⟨10, _⟩ => ⟨S1x64, .f32⟩
  | .local _ .vmem, ⟨11, _⟩ => ⟨S10000x64, .f32⟩
  | .local _ .vmem, ⟨12, _⟩ => ⟨S10000x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S64x64, .f32⟩
  | .local _ .vmem, ⟨18, _⟩ => ⟨S64x64, .f32⟩
  | .local _ .vmem, ⟨19, _⟩ => ⟨S1x64, .f32⟩
  | .local _ .vmem, ⟨20, _⟩ => ⟨S1x64, .f32⟩
  | .local _ .vmem, ⟨21, _⟩ => ⟨S1x64, .f32⟩
  | .local _ .vmem, ⟨22, _⟩ => ⟨S1x64, .f32⟩
  | .local _ .vmem, ⟨23, _⟩ => ⟨S1x64, .f32⟩
  | .local _ .vmem, ⟨24, _⟩ => ⟨S10000x64, .f32⟩
  | .local _ .vmem, ⟨25, _⟩ => ⟨S10000x64, .f32⟩
  | .local _ .vmem, ⟨26, _⟩ => ⟨S10000x64, .f32⟩
  | .local _ .vmem, ⟨27, _⟩ => ⟨S10000x64, .f32⟩
  | .local _ .vmem, ⟨28, _⟩ => ⟨S1x64, .f32⟩
  | .local _ .vmem, ⟨29, _⟩ => ⟨S1x1, .f32⟩
  | .local _ .vmem, ⟨30, _⟩ => ⟨S10000x1, .f32⟩
  | .local _ .vmem, ⟨31, _⟩ => ⟨S10000x1, .f32⟩
  | _, _ => ⟨S1000000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_cst : Ref sig .tc := ⟨.hbm, 22, rfl⟩
abbrev main_v4 : Ref sig .tc := ⟨.hbm, 23, rfl⟩
abbrev main_cst_0 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_cst_1 : Ref sig .tc := ⟨.hbm, 28, rfl⟩
abbrev main_v8 : Ref sig .tc := ⟨.hbm, 29, rfl⟩
abbrev main_v9 : Ref sig .tc := ⟨.hbm, 30, rfl⟩
abbrev main_cst_2 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_c : Ref sig .tc := ⟨.hbm, 35, rfl⟩
abbrev main_v13 : Ref sig .tc := ⟨.hbm, 36, rfl⟩
abbrev main_v14 : Ref sig .tc := ⟨.hbm, 37, rfl⟩
abbrev main_c_3 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_cst_4 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_c_5 : Ref sig .tc := ⟨.hbm, 56, rfl⟩
abbrev main_v31 : Ref sig .tc := ⟨.hbm, 57, rfl⟩
abbrev main_v32 : Ref sig .tc := ⟨.hbm, 58, rfl⟩
abbrev main_c_6 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_cst_7 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg8_0 : Ref sig .tc := ⟨.vmem, 23, rfl⟩
abbrev cc1_stg9_0 : Ref sig .tc := ⟨.vmem, 24, rfl⟩
abbrev cc1_stg9_1 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg2_0 : Ref sig .tc := ⟨.vmem, 29, rfl⟩
abbrev cc2_stg3_0 : Ref sig .tc := ⟨.vmem, 30, rfl⟩
abbrev cc2_stg3_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem8_0 : DmaSem sig := 23
abbrev cc1_sem9_0 : DmaSem sig := 24
abbrev cc1_sem9_1 : DmaSem sig := 25
abbrev cc2_sem0_0 : DmaSem sig := 26
abbrev cc2_sem0_1 : DmaSem sig := 27
abbrev cc2_sem1_0 : DmaSem sig := 28
abbrev cc2_sem2_0 : DmaSem sig := 29
abbrev cc2_sem3_0 : DmaSem sig := 30
abbrev cc2_sem3_1 : DmaSem sig := 31

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x4 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S10000x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S10000x64 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x2500000_S1x2500000_0_0 : S2x2500000.Slices ![0, 0] S1x2500000
  shapeCasts_S1x2500000_S2500000 : S1x2500000.ShapeCasts S2500000
  slices_S2x2500000_S1x2500000_1_0 : S2x2500000.Slices ![1, 0] S1x2500000
  bcast_S_S2500000 : S_.BroadcastsInDim S2500000 (![] : Fin 0 → Fin S2500000.rank)
  bcast_S_S1000000 : S_.BroadcastsInDim S1000000 (![] : Fin 0 → Fin S1000000.rank)
  bcast_S2500000_S2500000x1_0 : S2500000.BroadcastsInDim S2500000x1 (![0] : Fin 1 → Fin S2500000x1.rank)
  bcast_S1000000_S1000000x1_0 : S1000000.BroadcastsInDim S1000000x1 (![0] : Fin 1 → Fin S1000000x1.rank)
  bcast_S_S1000000x4 : S_.BroadcastsInDim S1000000x4 (![] : Fin 0 → Fin S1000000x4.rank)
  bcast_S1000000x1_S1000000x4_0_1 : S1000000x1.BroadcastsInDim S1000000x4 (![0, 1] : Fin 2 → Fin S1000000x4.rank)
  shapeCasts_S64_S1x64 : S64.ShapeCasts S1x64
  inb_S10000x4_S10000x4_0_0 : ∀ a, (![0, 0] : Fin 2 → Nat) a + S10000x4.size a ≤ S10000x4.size a
  h_S10000x4 : 0 < S10000x4.numel
  shapeCasts_S10000x4_S10000x4 : S10000x4.ShapeCasts S10000x4
  bitsLt_bf16_f32 : FTy.bits .bf16 < FTy.bits .f32
  inb_S64x4_S64x4_0_0 : ∀ a, (![0, 0] : Fin 2 → Nat) a + S64x4.size a ≤ S64x4.size a
  h_S64x4 : 0 < S64x4.numel
  transposes_S64x4_p1_0_S4x64 : S64x4.Transposes [1, 0] S4x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  bcast_S_S1000000x64 : S_.BroadcastsInDim S1000000x64 (![] : Fin 0 → Fin S1000000x64.rank)
  bcast_S1000000x1_S1000000x64_0_1 : S1000000x1.BroadcastsInDim S1000000x64 (![0, 1] : Fin 2 → Fin S1000000x64.rank)
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  transposes_S64x64_p1_0_S64x64 : S64x64.Transposes [1, 0] S64x64
  shapeCasts_S1_S1x1 : S1.ShapeCasts S1x1
  transposes_S1x64_p1_0_S64x1 : S1x64.Transposes [1, 0] S64x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x1 : S1x1.Broadcasts S10000x1
  inb_S10000x1_S10000x1_0_0 : ∀ a, (![0, 0] : Fin 2 → Nat) a + S10000x1.size a ≤ S10000x1.size a
  h_S10000x1 : 0 < S10000x1.numel
  scatter_S1000000_S2500000x1_S2500000_n_0_0_1_wf : ScatterDims.WF S1000000 S2500000x1 S2500000 [] [0] [0] 1
  gather_S1000000x4_S2500000x1_S2500000x4_1_0_n_n_0_1_14_wf : GatherDims.WF S1000000x4 S2500000x1 S2500000x4 [1] [0] [] [0] [] 1 ![1, 4]
  scatter_S1000000x4_S2500000x1_S2500000x4_1_0_0_1_wf : ScatterDims.WF S1000000x4 S2500000x1 S2500000x4 [1] [0] [0] 1
  dot_S10000x4_S4x64_S10000x64_1_0_0_1_n_n_wf : DotDims.WF S10000x4 S4x64 S10000x64 [1] [0] [0] [1] [] []
  gather_S1000000x64_S2500000x1_S2500000x64_1_0_n_n_0_1_164_wf : GatherDims.WF S1000000x64 S2500000x1 S2500000x64 [1] [0] [] [0] [] 1 ![1, 64]
  scatter_S1000000x64_S2500000x1_S2500000x64_1_0_0_1_wf : ScatterDims.WF S1000000x64 S2500000x1 S2500000x64 [1] [0] [0] 1
  dot_S10000x64_S64x64_S10000x64_1_0_0_1_n_n_wf : DotDims.WF S10000x64 S64x64 S10000x64 [1] [0] [0] [1] [] []
  dot_S10000x64_S64x1_S10000x1_1_0_0_1_n_n_wf : DotDims.WF S10000x64 S64x1 S10000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x4.size a ≤ S1000000x4.size a
  hwx0_0 : ∀ i : grid0.Coords, EltTy.bits .f32 = 32 ∨ (Rect.block (s := S1000000x4) S10000x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x4.size a ≤ S1000000x4.size a
  hwx0_1 : ∀ i : grid0.Coords, EltTy.bits .f32 = 32 ∨ (Rect.block (s := S1000000x4) S10000x4.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x4.size a ≤ S64x4.size a
  hwx0_2 : ∀ i : grid0.Coords, EltTy.bits .f32 = 32 ∨ (Rect.block (s := S64x4) S64x4.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x4.size a ≤ S64x4.size a
  hwx0_3 : ∀ i : grid0.Coords, EltTy.bits .f32 = 32 ∨ (Rect.block (s := S64x4) S64x4.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S10000x64.size a ≤ S1000000x64.size a
  hwx0_9 : ∀ i : grid0.Coords, EltTy.bits .f32 = 32 ∨ (Rect.block (s := S1000000x64) S10000x64.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S1000000x64.size a
  hwx1_0 : ∀ i : grid1.Coords, EltTy.bits .f32 = 32 ∨ (Rect.block (s := S1000000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S1000000x64.size a
  hwx1_1 : ∀ i : grid1.Coords, EltTy.bits .f32 = 32 ∨ (Rect.block (s := S1000000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x64.size a ≤ S1x64.size a
  hwx1_7 : ∀ i : grid1.Coords, EltTy.bits .f32 = 32 ∨ (Rect.block (s := S1x64) S1x64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x64.size a ≤ S1x64.size a
  hwx1_8 : ∀ i : grid1.Coords, EltTy.bits .f32 = 32 ∨ (Rect.block (s := S1x64) S1x64.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S10000x64.size a ≤ S1000000x64.size a
  hwx1_9 : ∀ i : grid1.Coords, EltTy.bits .f32 = 32 ∨ (Rect.block (s := S1000000x64) S10000x64.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S1000000x64.size a
  hwx2_0 : ∀ i : grid2.Coords, EltTy.bits .f32 = 32 ∨ (Rect.block (s := S1000000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1.size a ≤ S1x1.size a
  hwx2_2 : ∀ i : grid2.Coords, EltTy.bits .f32 = 32 ∨ (Rect.block (s := S1x1) S1x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x1.size a ≤ S1000000x1.size a
  hwx2_3 : ∀ i : grid2.Coords, EltTy.bits .f32 = 32 ∨ (Rect.block (s := S1000000x1) S10000x1.size (cc2_transform_3 i) (hinb2_3 i)).WholeWords (EltTy.packing .f32)

variable [Facts₀]

def scatter_S1000000_S2500000x1_S2500000_n_0_0_1 : ScatterDims S1000000 S2500000x1 S2500000 where
  updateWindowDims := []
  insertedWindowDims := [0]
  scatterDimsToOperandDims := [0]
  indexVectorDim := 1
  wf := scatter_S1000000_S2500000x1_S2500000_n_0_0_1_wf
def gather_S1000000x4_S2500000x1_S2500000x4_1_0_n_n_0_1_14 : GatherDims S1000000x4 S2500000x1 S2500000x4 where
  offsetDims := [1]
  collapsedSliceDims := [0]
  operandBatchingDims := []
  startIndicesBatchingDims := []
  startIndexMap := [0]
  indexVectorDim := 1
  sliceSizes := ![1, 4]
  wf := gather_S1000000x4_S2500000x1_S2500000x4_1_0_n_n_0_1_14_wf
def scatter_S1000000x4_S2500000x1_S2500000x4_1_0_0_1 : ScatterDims S1000000x4 S2500000x1 S2500000x4 where
  updateWindowDims := [1]
  insertedWindowDims := [0]
  scatterDimsToOperandDims := [0]
  indexVectorDim := 1
  wf := scatter_S1000000x4_S2500000x1_S2500000x4_1_0_0_1_wf
def dot_S10000x4_S4x64_S10000x64_1_0_0_1_n_n : DotDims S10000x4 S4x64 S10000x64 where
  lhsContracting := [1]
  rhsContracting := [0]
  lhsNonContracting := [0]
  rhsNonContracting := [1]
  lhsBatch := []
  rhsBatch := []
  wf := dot_S10000x4_S4x64_S10000x64_1_0_0_1_n_n_wf
def gather_S1000000x64_S2500000x1_S2500000x64_1_0_n_n_0_1_164 : GatherDims S1000000x64 S2500000x1 S2500000x64 where
  offsetDims := [1]
  collapsedSliceDims := [0]
  operandBatchingDims := []
  startIndicesBatchingDims := []
  startIndexMap := [0]
  indexVectorDim := 1
  sliceSizes := ![1, 64]
  wf := gather_S1000000x64_S2500000x1_S2500000x64_1_0_n_n_0_1_164_wf
def scatter_S1000000x64_S2500000x1_S2500000x64_1_0_0_1 : ScatterDims S1000000x64 S2500000x1 S2500000x64 where
  updateWindowDims := [1]
  insertedWindowDims := [0]
  scatterDimsToOperandDims := [0]
  indexVectorDim := 1
  wf := scatter_S1000000x64_S2500000x1_S2500000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x1_S10000x1_1_0_0_1_n_n : DotDims S10000x64 S64x1 S10000x1 where
  lhsContracting := [1]
  rhsContracting := [0]
  lhsNonContracting := [0]
  rhsNonContracting := [1]
  lhsBatch := []
  rhsBatch := []
  wf := dot_S10000x64_S64x1_S10000x1_1_0_0_1_n_n_wf

abbrev win0_0 : Pipeline.Window sig grid0 :=
  Pipeline.Window.ofSpec (Memref.whole main_v24) S10000x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x4.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S64x4.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v27) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v28) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v29) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v30) S10000x64.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v42) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg9) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg11) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v44) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v45) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v46) S1x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v47) S1x64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v48) S10000x64.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v48) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg16) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v49) S1x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v50) S10000x1.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S1000000x4 : Shape := ⟨2, ![1000000, 4]⟩
abbrev S2x2500000 : Shape := ⟨2, ![2, 2500000]⟩
abbrev S64x4 : Shape := ⟨2, ![64, 4]⟩
abbrev S64 : Shape := ⟨1, ![64]⟩
abbrev S64x64 : Shape := ⟨2, ![64, 64]⟩
abbrev S1x64 : Shape := ⟨2, ![1, 64]⟩
abbrev S1 : Shape := ⟨1, ![1]⟩
abbrev S1x2500000 : Shape := ⟨2, ![1, 2500000]⟩
abbrev S2500000 : Shape := ⟨1, ![2500000]⟩
abbrev S_ : Shape := ⟨0, ![]⟩
abbrev S1000000 : Shape := ⟨1, ![1000000]⟩
abbrev S2500000x1 : Shape := ⟨2, ![2500000, 1]⟩
abbrev S1000000x1 : Shape := ⟨2, ![1000000, 1]⟩
abbrev S2500000x4 : Shape := ⟨2, ![2500000, 4]⟩
abbrev S4x64 : Shape := ⟨2, ![4, 64]⟩
abbrev S1000000x64 : Shape := ⟨2, ![1000000, 64]⟩
abbrev S2500000x64 : Shape := ⟨2, ![2500000, 64]⟩
abbrev S64x1 : Shape := ⟨2, ![64, 1]⟩
abbrev S1x1 : Shape := ⟨2, ![1, 1]⟩

abbrev nBuf : Space → Nat
  | .hbm => 132
  | .vmem => 0
  | .smem => 0
  | _ => 0

abbrev hbmTy0_0 (i : Nat) : BufTy := match i % 128 with
  | 0 => ⟨S1000000x4, .f32⟩
  | 1 => ⟨S2x2500000, .i32⟩
  | 2 => ⟨S64x4, .f32⟩
  | 3 => ⟨S64, .f32⟩
  | 4 => ⟨S64x4, .f32⟩
  | 5 => ⟨S64, .f32⟩
  | 6 => ⟨S64, .f32⟩
  | 7 => ⟨S64, .f32⟩
  | 8 => ⟨S64, .f32⟩
  | 9 => ⟨S64x64, .f32⟩
  | 10 => ⟨S64, .f32⟩
  | 11 => ⟨S64x64, .f32⟩
  | 12 => ⟨S64, .f32⟩
  | 13 => ⟨S64, .f32⟩
  | 14 => ⟨S64, .f32⟩
  | 15 => ⟨S64, .f32⟩
  | 16 => ⟨S1x64, .f32⟩
  | 17 => ⟨S1, .f32⟩
  | 18 => ⟨S1x2500000, .i32⟩
  | 19 => ⟨S2500000, .i32⟩
  | 20 => ⟨S1x2500000, .i32⟩
  | 21 => ⟨S2500000, .i32⟩
  | 22 => ⟨S_, .f32⟩
  | 23 => ⟨S2500000, .f32⟩
  | 24 => ⟨S_, .f32⟩
  | 25 => ⟨S1000000, .f32⟩
  | 26 => ⟨S2500000x1, .i32⟩
  | 27 => ⟨S1000000, .f32⟩
  | 28 => ⟨S_, .f32⟩
  | 29 => ⟨S1000000, .f32⟩
  | 30 => ⟨S1000000, .f32⟩
  | 31 => ⟨S_, .f32⟩
  | 32 => ⟨S1000000, .f32⟩
  | 33 => ⟨S1000000, .f32⟩
  | 34 => ⟨S1000000x1, .f32⟩
  | 35 => ⟨S_, .i32⟩
  | 36 => ⟨S2500000, .i32⟩
  | 37 => ⟨S2500000, .i1⟩
  | 38 => ⟨S_, .i32⟩
  | 39 => ⟨S2500000, .i32⟩
  | 40 => ⟨S2500000, .i32⟩
  | 41 => ⟨S2500000, .i32⟩
  | 42 => ⟨S2500000x1, .i32⟩
  | 43 => ⟨S2500000x4, .f32⟩
  | 44 => ⟨S_, .f32⟩
  | 45 => ⟨S1000000x4, .f32⟩
  | 46 => ⟨S2500000x1, .i32⟩
  | 47 => ⟨S1000000x4, .f32⟩
  | 48 => ⟨S1000000x4, .f32⟩
  | 49 => ⟨S1000000x4, .f32⟩
  | 50 => ⟨S4x64, .f32⟩
  | 51 => ⟨S1000000x64, .f32⟩
  | 52 => ⟨S1x64, .f32⟩
  | 53 => ⟨S1000000x64, .f32⟩
  | 54 => ⟨S1000000x64, .f32⟩
  | 55 => ⟨S4x64, .f32⟩
  | 56 => ⟨S1000000x64, .f32⟩
  | 57 => ⟨S1000000x64, .f32⟩
  | 58 => ⟨S1x64, .f32⟩
  | 59 => ⟨S1000000x64, .f32⟩
  | 60 => ⟨S1000000x64, .f32⟩
  | 61 => ⟨S_, .f32⟩
  | 62 => ⟨S64, .f32⟩
  | 63 => ⟨S64, .f32⟩
  | 64 => ⟨S64, .f32⟩
  | 65 => ⟨S1x64, .f32⟩
  | 66 => ⟨S1000000x64, .f32⟩
  | 67 => ⟨S1000000x64, .f32⟩
  | 68 => ⟨S1x64, .f32⟩
  | 69 => ⟨S1000000x64, .f32⟩
  | 70 => ⟨S1000000x64, .f32⟩
  | 71 => ⟨S1x64, .f32⟩
  | 72 => ⟨S1000000x64, .f32⟩
  | 73 => ⟨S1000000x64, .f32⟩
  | 74 => ⟨S_, .f32⟩
  | 75 => ⟨S1000000x64, .f32⟩
  | 76 => ⟨S1000000x64, .f32⟩
  | 77 => ⟨S_, .i32⟩
  | 78 => ⟨S2500000, .i32⟩
  | 79 => ⟨S2500000, .i1⟩
  | 80 => ⟨S_, .i32⟩
  | 81 => ⟨S2500000, .i32⟩
  | 82 => ⟨S2500000, .i32⟩
  | 83 => ⟨S2500000, .i32⟩
  | 84 => ⟨S2500000x1, .i32⟩
  | 85 => ⟨S2500000x64, .f32⟩
  | 86 => ⟨S_, .f32⟩
  | 87 => ⟨S1000000x64, .f32⟩
  | 88 => ⟨S2500000x1, .i32⟩
  | 89 => ⟨S1000000x64, .f32⟩
  | 90 => ⟨S1000000x64, .f32⟩
  | 91 => ⟨S1000000x64, .f32⟩
  | 92 => ⟨S64x64, .f32⟩
  | 93 => ⟨S1000000x64, .f32⟩
  | 94 => ⟨S1x64, .f32⟩
  | 95 => ⟨S1000000x64, .f32⟩
  | 96 => ⟨S1000000x64, .f32⟩
  | 97 => ⟨S64x64, .f32⟩
  | 98 => ⟨S1000000x64, .f32⟩
  | 99 => ⟨S1000000x64, .f32⟩
  | 100 => ⟨S1x64, .f32⟩
  | 101 => ⟨S1000000x64, .f32⟩
  | 102 => ⟨S1000000x64, .f32⟩
  | 103 => ⟨S_, .f32⟩
  | 104 => ⟨S64, .f32⟩
  | 105 => ⟨S64, .f32⟩
  | 106 => ⟨S64, .f32⟩
  | 107 => ⟨S1x64, .f32⟩
  | 108 => ⟨S1000000x64, .f32⟩
  | 109 => ⟨S1000000x64, .f32⟩
  | 110 => ⟨S1x64, .f32⟩
  | 111 => ⟨S1000000x64, .f32⟩
  | 112 => ⟨S1000000x64, .f32⟩
  | 113 => ⟨S1x64, .f32⟩
  | 114 => ⟨S1000000x64, .f32⟩
  | 115 => ⟨S1000000x64, .f32⟩
  | 116 => ⟨S_, .f32⟩
  | 117 => ⟨S1000000x64, .f32⟩
  | 118 => ⟨S1000000x64, .f32⟩
  | 119 => ⟨S64x1, .f32⟩
  | 120 => ⟨S1000000x1, .f32⟩
  | 121 => ⟨S1x1, .f32⟩
  | 122 => ⟨S1000000x1, .f32⟩
  | 123 => ⟨S1000000x1, .f32⟩
  | 124 => ⟨S1000000x1, .f32⟩
  | 125 => ⟨S1000000x1, .f32⟩
  | 126 => ⟨S_, .f32⟩
  | 127 => ⟨S1000000x1, .f32⟩
  | _ => ⟨S1000000x4, .f32⟩

abbrev hbmTy0_1 (i : Nat) : BufTy := match i % 128 with
  | 0 => ⟨S1000000x1, .f32⟩
  | 1 => ⟨S_, .f32⟩
  | 2 => ⟨S1000000x1, .f32⟩
  | 3 => ⟨S1000000x1, .f32⟩
  | _ => ⟨S1000000x4, .f32⟩

abbrev hbmTy (i : Nat) : BufTy := match i / 128 with
  | 0 => hbmTy0_0 i
  | 1 => hbmTy0_1 i
  | _ => ⟨S1000000x4, .f32⟩

abbrev bufTy : (tb : Table) → Fin (tcTables nBuf tb) → BufTy
  | .hbm, ⟨i, _⟩ => hbmTy i
  | _, _ => ⟨S1000000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_cst : Ref sig .tc := ⟨.hbm, 22, rfl⟩
abbrev main_v4 : Ref sig .tc := ⟨.hbm, 23, rfl⟩
abbrev main_cst_0 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_cst_1 : Ref sig .tc := ⟨.hbm, 28, rfl⟩
abbrev main_v8 : Ref sig .tc := ⟨.hbm, 29, rfl⟩
abbrev main_v9 : Ref sig .tc := ⟨.hbm, 30, rfl⟩
abbrev main_cst_2 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_c : Ref sig .tc := ⟨.hbm, 35, rfl⟩
abbrev main_v13 : Ref sig .tc := ⟨.hbm, 36, rfl⟩
abbrev main_v14 : Ref sig .tc := ⟨.hbm, 37, rfl⟩
abbrev main_c_3 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_cst_4 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_cst_5 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_call0_cst : Ref sig .tc := ⟨.hbm, 74, rfl⟩
abbrev main_call0_v0 : Ref sig .tc := ⟨.hbm, 75, rfl⟩
abbrev main_v48 : Ref sig .tc := ⟨.hbm, 76, rfl⟩
abbrev main_c_6 : Ref sig .tc := ⟨.hbm, 77, rfl⟩
abbrev main_v49 : Ref sig .tc := ⟨.hbm, 78, rfl⟩
abbrev main_v50 : Ref sig .tc := ⟨.hbm, 79, rfl⟩
abbrev main_c_7 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_cst_8 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_cst_9 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_call1_cst : Ref sig .tc := ⟨.hbm, 116, rfl⟩
abbrev main_call1_v0 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_cst_10 : Ref sig .tc := ⟨.hbm, 126, rfl⟩
abbrev main_v92 : Ref sig .tc := ⟨.hbm, 127, rfl⟩
abbrev main_v93 : Ref sig .tc := ⟨.hbm, 128, rfl⟩
abbrev main_cst_11 : Ref sig .tc := ⟨.hbm, 129, rfl⟩
abbrev main_v94 : Ref sig .tc := ⟨.hbm, 130, rfl⟩
abbrev main_v95 : Ref sig .tc := ⟨.hbm, 131, rfl⟩

abbrev nD : Nat := 1
abbrev τ : Topo := Topo.v7x

variable {F : FTy → Type} [FloatOps F]

class Facts₀ : Prop where
  slices_S2x2500000_S1x2500000_0_0 : S2x2500000.Slices ![0, 0] S1x2500000
  shapeCasts_S1x2500000_S2500000 : S1x2500000.ShapeCasts S2500000
  slices_S2x2500000_S1x2500000_1_0 : S2x2500000.Slices ![1, 0] S1x2500000
  bcast_S_S2500000 : S_.BroadcastsInDim S2500000 (![] : Fin 0 → Fin S2500000.rank)
  bcast_S_S1000000 : S_.BroadcastsInDim S1000000 (![] : Fin 0 → Fin S1000000.rank)
  bcast_S2500000_S2500000x1_0 : S2500000.BroadcastsInDim S2500000x1 (![0] : Fin 1 → Fin S2500000x1.rank)
  bcast_S1000000_S1000000x1_0 : S1000000.BroadcastsInDim S1000000x1 (![0] : Fin 1 → Fin S1000000x1.rank)
  bcast_S_S1000000x4 : S_.BroadcastsInDim S1000000x4 (![] : Fin 0 → Fin S1000000x4.rank)
  bcast_S1000000x1_S1000000x4_0_1 : S1000000x1.BroadcastsInDim S1000000x4 (![0, 1] : Fin 2 → Fin S1000000x4.rank)
  transposes_S64x4_S4x64_1_0 : S64x4.Transposes [1, 0] S4x64
  bcast_S64_S1x64_1 : S64.BroadcastsInDim S1x64 (![1] : Fin 1 → Fin S1x64.rank)
  bcast_S1x64_S1000000x64_0_1 : S1x64.BroadcastsInDim S1000000x64 (![0, 1] : Fin 2 → Fin S1000000x64.rank)
  bcast_S_S64 : S_.BroadcastsInDim S64 (![] : Fin 0 → Fin S64.rank)
  bcast_S_S1000000x64 : S_.BroadcastsInDim S1000000x64 (![] : Fin 0 → Fin S1000000x64.rank)
  bcast_S1000000x1_S1000000x64_0_1 : S1000000x1.BroadcastsInDim S1000000x64 (![0, 1] : Fin 2 → Fin S1000000x64.rank)
  transposes_S64x64_S64x64_1_0 : S64x64.Transposes [1, 0] S64x64
  transposes_S1x64_S64x1_1_0 : S1x64.Transposes [1, 0] S64x1
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  bcast_S_S1000000x1 : S_.BroadcastsInDim S1000000x1 (![] : Fin 0 → Fin S1000000x1.rank)
  scatter_S1000000_S2500000x1_S2500000_n_0_0_1_wf : ScatterDims.WF S1000000 S2500000x1 S2500000 [] [0] [0] 1
  gather_S1000000x4_S2500000x1_S2500000x4_1_0_n_n_0_1_14_wf : GatherDims.WF S1000000x4 S2500000x1 S2500000x4 [1] [0] [] [0] [] 1 ![1, 4]
  scatter_S1000000x4_S2500000x1_S2500000x4_1_0_0_1_wf : ScatterDims.WF S1000000x4 S2500000x1 S2500000x4 [1] [0] [0] 1
  dot_S1000000x4_S4x64_S1000000x64_1_0_0_1_n_n_wf : DotDims.WF S1000000x4 S4x64 S1000000x64 [1] [0] [0] [1] [] []
  gather_S1000000x64_S2500000x1_S2500000x64_1_0_n_n_0_1_164_wf : GatherDims.WF S1000000x64 S2500000x1 S2500000x64 [1] [0] [] [0] [] 1 ![1, 64]
  scatter_S1000000x64_S2500000x1_S2500000x64_1_0_0_1_wf : ScatterDims.WF S1000000x64 S2500000x1 S2500000x64 [1] [0] [0] 1
  dot_S1000000x64_S64x64_S1000000x64_1_0_0_1_n_n_wf : DotDims.WF S1000000x64 S64x64 S1000000x64 [1] [0] [0] [1] [] []
  dot_S1000000x64_S64x1_S1000000x1_1_0_0_1_n_n_wf : DotDims.WF S1000000x64 S64x1 S1000000x1 [1] [0] [0] [1] [] []

variable [Facts₀]

def scatter_S1000000_S2500000x1_S2500000_n_0_0_1 : ScatterDims S1000000 S2500000x1 S2500000 where
  updateWindowDims := []
  insertedWindowDims := [0]
  scatterDimsToOperandDims := [0]
  indexVectorDim := 1
  wf := scatter_S1000000_S2500000x1_S2500000_n_0_0_1_wf
def gather_S1000000x4_S2500000x1_S2500000x4_1_0_n_n_0_1_14 : GatherDims S1000000x4 S2500000x1 S2500000x4 where
  offsetDims := [1]
  collapsedSliceDims := [0]
  operandBatchingDims := []
  startIndicesBatchingDims := []
  startIndexMap := [0]
  indexVectorDim := 1
  sliceSizes := ![1, 4]
  wf := gather_S1000000x4_S2500000x1_S2500000x4_1_0_n_n_0_1_14_wf
def scatter_S1000000x4_S2500000x1_S2500000x4_1_0_0_1 : ScatterDims S1000000x4 S2500000x1 S2500000x4 where
  updateWindowDims := [1]
  insertedWindowDims := [0]
  scatterDimsToOperandDims := [0]
  indexVectorDim := 1
  wf := scatter_S1000000x4_S2500000x1_S2500000x4_1_0_0_1_wf
def dot_S1000000x4_S4x64_S1000000x64_1_0_0_1_n_n : DotDims S1000000x4 S4x64 S1000000x64 where
  lhsContracting := [1]
  rhsContracting := [0]
  lhsNonContracting := [0]
  rhsNonContracting := [1]
  lhsBatch := []
  rhsBatch := []
  wf := dot_S1000000x4_S4x64_S1000000x64_1_0_0_1_n_n_wf
def gather_S1000000x64_S2500000x1_S2500000x64_1_0_n_n_0_1_164 : GatherDims S1000000x64 S2500000x1 S2500000x64 where
  offsetDims := [1]
  collapsedSliceDims := [0]
  operandBatchingDims := []
  startIndicesBatchingDims := []
  startIndexMap := [0]
  indexVectorDim := 1
  sliceSizes := ![1, 64]
  wf := gather_S1000000x64_S2500000x1_S2500000x64_1_0_n_n_0_1_164_wf
def scatter_S1000000x64_S2500000x1_S2500000x64_1_0_0_1 : ScatterDims S1000000x64 S2500000x1 S2500000x64 where
  updateWindowDims := [1]
  insertedWindowDims := [0]
  scatterDimsToOperandDims := [0]
  indexVectorDim := 1
  wf := scatter_S1000000x64_S2500000x1_S2500000x64_1_0_0_1_wf
def dot_S1000000x64_S64x64_S1000000x64_1_0_0_1_n_n : DotDims S1000000x64 S64x64 S1000000x64 where
  lhsContracting := [1]
  rhsContracting := [0]
  lhsNonContracting := [0]
  rhsNonContracting := [1]
  lhsBatch := []
  rhsBatch := []
  wf := dot_S1000000x64_S64x64_S1000000x64_1_0_0_1_n_n_wf
def dot_S1000000x64_S64x1_S1000000x1_1_0_0_1_n_n : DotDims S1000000x64 S64x1 S1000000x1 where
  lhsContracting := [1]
  rhsContracting := [0]
  lhsNonContracting := [0]
  rhsNonContracting := [1]
  lhsBatch := []
  rhsBatch := []
  wf := dot_S1000000x64_S64x1_S1000000x1_1_0_0_1_n_n_wf

class Facts : Prop extends Facts₀ where

variable [Facts]
-- ==== Proof.Spec.lean ====
/-
  The mathematics that both programs compute, index by index, over the extended reals.

  A node's new feature vector is a rectified, batch-normalised affine image of two inputs: the mean of its
  in-neighbours' features (`agg`) and its own features (`h`). For node `r` and output feature `j`

      s      = ∑ₖ agg[r,k] · Wl[j,k]  +  ∑ₖ h[r,k] · Wr[j,k]
      out    = max ( ((s + b[j] − rm[j]) · (rv[j] + ε)^(-1/2)) · g[j] + be[j] , 0 )

  with `ε` the variance guard, the same binary word in both programs. The last stage projects the 64 features of a
  node on one weight row, adds a bias and applies the logistic function `z ↦ 1 / (1 + e^(−z))`.

  The per-feature parameters enter as ONE-ROW matrices `[1, 64]` (and the last bias as `[1, 1]`): `row` and `row1`
  turn a vector into that row. Nothing here mentions a program: the arrays are functions on literal index types.
-/
import Idealize.ShloMosaic.PureOps.Ideal
import Idealize.ShloMosaic.Lib.ValueIdx

noncomputable section

namespace Cert.Sage

open Idealize.ShloMosaic Idealize.ShloMosaic.ValueIdx

abbrev SN4 : Shape := ⟨2, ![1000000, 4]⟩
abbrev SN64 : Shape := ⟨2, ![1000000, 64]⟩
abbrev SN1 : Shape := ⟨2, ![1000000, 1]⟩
abbrev SW4 : Shape := ⟨2, ![64, 4]⟩
abbrev SW64 : Shape := ⟨2, ![64, 64]⟩
abbrev SRow : Shape := ⟨2, ![1, 64]⟩
abbrev SOne : Shape := ⟨2, ![1, 1]⟩
abbrev SVec64 : Shape := ⟨1, ![64]⟩
abbrev SVec1 : Shape := ⟨1, ![1]⟩

/-- The variance guard `ε`: one binary word, never evaluated. -/
def eps : EReal := Ideal.ofBits .f32 0x3727C5AC#32

/-- Bias, batch normalisation with running statistics, and rectification of one pre-activation `s`. -/
def bnRelu (s b g be rm rv : EReal) : EReal :=
  max (((s + b - rm) * Ideal.rsqrt (rv + eps)) * g + be) 0

/-- A vector as a one-row matrix. -/
def row (v : FVec Ideal SVec64 .f32) : FVec Ideal SRow .f32 := fun i => v (ix1 ⟨(i 1).val, (i 1).isLt⟩)
/-- A one-element vector as a one-by-one matrix. -/
def row1 (v : FVec Ideal SVec1 .f32) : FVec Ideal SOne .f32 := fun _ => v (ix1 0)

theorem row_ix2 (v : FVec Ideal SVec64 .f32) (a : Fin 1) (j : Fin 64) : row v (ix2 a j) = v (ix1 j) := rfl
theorem row1_apply (v : FVec Ideal SVec1 .f32) (i : SOne.Idx) : row1 v i = v (ix1 0) := rfl

/-- The first layer (4 input features) at node `r`, output feature `j`. -/
def layerElt4 (agg h : FVec Ideal SN4 .f32) (Wl Wr : FVec Ideal SW4 .f32) (b g be rm rv : FVec Ideal SRow .f32)
    (r : Fin 1000000) (j : Fin 64) : EReal :=
  bnRelu ((∑ k : Fin 4, agg (ix2 r k) * Wl (ix2 j k)) + ∑ k : Fin 4, h (ix2 r k) * Wr (ix2 j k))
    (b (ix2 (0 : Fin 1) j)) (g (ix2 (0 : Fin 1) j)) (be (ix2 (0 : Fin 1) j)) (rm (ix2 (0 : Fin 1) j)) (rv (ix2 (0 : Fin 1) j))

/-- The first layer as a whole array. -/
def layer4 (agg h : FVec Ideal SN4 .f32) (Wl Wr : FVec Ideal SW4 .f32) (b g be rm rv : FVec Ideal SRow .f32) :
    FVec Ideal SN64 .f32 :=
  fun i => layerElt4 agg h Wl Wr b g be rm rv ⟨(i 0).val, (i 0).isLt⟩ ⟨(i 1).val, (i 1).isLt⟩

theorem layer4_ix2 (agg h : FVec Ideal SN4 .f32) (Wl Wr : FVec Ideal SW4 .f32) (b g be rm rv : FVec Ideal SRow .f32)
    (r : Fin 1000000) (j : Fin 64) :
    layer4 agg h Wl Wr b g be rm rv (ix2 r j) = layerElt4 agg h Wl Wr b g be rm rv r j := rfl

/-- The second layer (64 input features) at node `r`, output feature `j`. -/
def layerElt64 (agg h : FVec Ideal SN64 .f32) (Wl Wr : FVec Ideal SW64 .f32) (b g be rm rv : FVec Ideal SRow .f32)
    (r : Fin 1000000) (j : Fin 64) : EReal :=
  bnRelu ((∑ k : Fin 64, agg (ix2 r k) * Wl (ix2 j k)) + ∑ k : Fin 64, h (ix2 r k) * Wr (ix2 j k))
    (b (ix2 (0 : Fin 1) j)) (g (ix2 (0 : Fin 1) j)) (be (ix2 (0 : Fin 1) j)) (rm (ix2 (0 : Fin 1) j)) (rv (ix2 (0 : Fin 1) j))

/-- The second layer as a whole array. -/
def layer64 (agg h : FVec Ideal SN64 .f32) (Wl Wr : FVec Ideal SW64 .f32) (b g be rm rv : FVec Ideal SRow .f32) :
    FVec Ideal SN64 .f32 :=
  fun i => layerElt64 agg h Wl Wr b g be rm rv ⟨(i 0).val, (i 0).isLt⟩ ⟨(i 1).val, (i 1).isLt⟩

theorem layer64_ix2 (agg h : FVec Ideal SN64 .f32) (Wl Wr : FVec Ideal SW64 .f32) (b g be rm rv : FVec Ideal SRow .f32)
    (r : Fin 1000000) (j : Fin 64) :
    layer64 agg h Wl Wr b g be rm rv (ix2 r j) = layerElt64 agg h Wl Wr b g be rm rv r j := rfl

/-- The projection of node `r`'s features on the weight row, plus the bias, through the logistic function. -/
def projElt (h : FVec Ideal SN64 .f32) (Wp : FVec Ideal SRow .f32) (bp : FVec Ideal SOne .f32) (r : Fin 1000000) : EReal :=
  Ideal.logistic ((∑ k : Fin 64, h (ix2 r k) * Wp (ix2 (0 : Fin 1) k)) + bp (ix2 (0 : Fin 1) (0 : Fin 1)))

/-- The projection as a whole array (one column). -/
def proj (h : FVec Ideal SN64 .f32) (Wp : FVec Ideal SRow .f32) (bp : FVec Ideal SOne .f32) : FVec Ideal SN1 .f32 :=
  fun i => projElt h Wp bp ⟨(i 0).val, (i 0).isLt⟩

theorem proj_ix2 (h : FVec Ideal SN64 .f32) (Wp : FVec Ideal SRow .f32) (bp : FVec Ideal SOne .f32)
    (r : Fin 1000000) (a : Fin 1) : proj h Wp bp (ix2 r a) = projElt h Wp bp r := rfl

end Cert.Sage

end
-- ==== Proof.Aggregate.lean ====
/-
  The neighbourhood mean, as ONE function of a feature array and the edge list.

  Both programs aggregate with the same host operations: gather the source node's feature row for every edge,
  scatter-add those rows at the destination node, and scale row `r` by `1 / max(deg r, 1)`, where `deg` is the
  in-degree obtained by scatter-adding ones. Which element a gather or a scatter touches depends on the VALUES of the
  edge list, so none of this is read index by index: the two programs' terms are recognised as the same function of
  the feature array (`mean4` for 4 features, `mean64` for 64) and that function is never opened.
  The index parts (the wrapped source indices, the destination indices, the zero array the scatter starts from, the
  broadcast inverse degrees) depend on the edge list alone; they are the reference's own stages.
-/
import proofs.«149538_j9431748182756_1_alg».proof.Proof.Gen.ReferenceIdeal.Read

noncomputable section

namespace Cert.Sage.Agg

open Cert.ReferenceIdeal Cert.ReferenceIdeal.Read Idealize.ShloMosaic

variable {F : FTy → Type} [FloatOps F]

/-- The mean over in-neighbours of a 4-feature array `x`, along the edge list `e`. -/
def mean4 (x : (⟨S1000000x4, .f32⟩ : BufTy).Contents (Elt F)) (e : (⟨S2x2500000, .i32⟩ : BufTy).Contents (Elt F)) : (⟨S1000000x4, .f32⟩ : BufTy).Contents (Elt F) :=
  mulf (Host.scatterAdd scatter_S1000000x4_S2500000x1_S2500000x4_1_0_0_1 (val_main_v20 (F := F)) (val_main_v21 (F := F) e)
      (Host.gather gather_S1000000x4_S2500000x1_S2500000x4_1_0_n_n_0_1_14 x (val_main_v18 (F := F) e)))
    (val_main_v23 (F := F) e)

/-- The mean over in-neighbours of a 64-feature array `h`, along the edge list `e`. -/
def mean64 (h : (⟨S1000000x64, .f32⟩ : BufTy).Contents (Elt F)) (e : (⟨S2x2500000, .i32⟩ : BufTy).Contents (Elt F)) : (⟨S1000000x64, .f32⟩ : BufTy).Contents (Elt F) :=
  mulf (Host.scatterAdd scatter_S1000000x64_S2500000x1_S2500000x64_1_0_0_1 (val_main_v56 (F := F)) (val_main_v57 (F := F) e)
      (Host.gather gather_S1000000x64_S2500000x1_S2500000x64_1_0_n_n_0_1_164 h (val_main_v54 (F := F) e)))
    (val_main_v59 (F := F) e)

/-- The reference's first aggregate is the mean of the node features. -/
theorem ref_mean4 (x0 : (⟨S1000000x4, .f32⟩ : BufTy).Contents (Elt F)) (x1 : (⟨S2x2500000, .i32⟩ : BufTy).Contents (Elt F)) :
    val_main_v24 (F := F) x0 x1 = mean4 x0 x1 := rfl

/-- The reference's second aggregate is the mean of the first layer's output. -/
theorem ref_mean64 (x0 : (⟨S1000000x4, .f32⟩ : BufTy).Contents (Elt F)) (x1 : (⟨S2x2500000, .i32⟩ : BufTy).Contents (Elt F))
    (x2 : (⟨S64x4, .f32⟩ : BufTy).Contents (Elt F)) (x3 : (⟨S64, .f32⟩ : BufTy).Contents (Elt F)) (x4 : (⟨S64x4, .f32⟩ : BufTy).Contents (Elt F)) (x5 x6 x7 x8 : (⟨S64, .f32⟩ : BufTy).Contents (Elt F)) :
    val_main_v60 (F := F) x0 x1 x2 x3 x4 x5 x6 x7 x8 = mean64 (val_main_v48 (F := F) x0 x1 x2 x3 x4 x5 x6 x7 x8) x1 := rfl

end Cert.Sage.Agg

end
-- ==== Proof.RefStages.lean ====
/-
  The reference program's three dense stages are the specification's functions.

  The reference computes a layer as ((agg·Wlᵀ + b) + h·Wrᵀ − rm) · (rv + ε)^(-1/2) · g + be followed by max(·, 0), every
  per-feature vector first laid out as a one-row matrix and then repeated over the nodes; the projection is followed by
  the logistic function spelt 1 / (1 + e^(−z)). Read at one node and one feature, each layout step is a change of
  index, each matrix product a finite sum over the contracted coordinate, and what remains differs from the
  specification in one place only: the bias is added before the second product instead of after it. Addition of
  extended reals is commutative and associative without any finiteness hypothesis, so the two agree everywhere.
-/
import proofs.«149538_j9431748182756_1_alg».proof.Proof.Gen.ReferenceIdeal.Read
import proofs.«149538_j9431748182756_1_alg».proof.Proof.Spec
import Idealize.ShloMosaic.Lib.IdealHost

noncomputable section

namespace Cert.ReferenceIdeal.RefValue

open Cert.ReferenceIdeal Cert.ReferenceIdeal.Gen Idealize.ShloMosaic Idealize.ShloMosaic.ValueIdx

variable (x0 : (⟨S1000000x4, .f32⟩ : BufTy).Contents (Elt Ideal)) (x1 : (⟨S2x2500000, .i32⟩ : BufTy).Contents (Elt Ideal))
  (x2 : (⟨S64x4, .f32⟩ : BufTy).Contents (Elt Ideal)) (x3 : (⟨S64, .f32⟩ : BufTy).Contents (Elt Ideal)) (x4 : (⟨S64x4, .f32⟩ : BufTy).Contents (Elt Ideal))
  (x5 x6 x7 x8 : (⟨S64, .f32⟩ : BufTy).Contents (Elt Ideal))
  (x9 : (⟨S64x64, .f32⟩ : BufTy).Contents (Elt Ideal)) (x10 : (⟨S64, .f32⟩ : BufTy).Contents (Elt Ideal)) (x11 : (⟨S64x64, .f32⟩ : BufTy).Contents (Elt Ideal))
  (x12 x13 x14 x15 : (⟨S64, .f32⟩ : BufTy).Contents (Elt Ideal))
  (x16 : (⟨S1x64, .f32⟩ : BufTy).Contents (Elt Ideal)) (x17 : (⟨S1, .f32⟩ : BufTy).Contents (Elt Ideal))

/-! ## The projection and the logistic function -/

/-- The projection's weight row, transposed to a column and read along the contracted coordinate. -/
theorem weight_col (r : Fin 1000000) (k : Fin 64) :
    Read.val_main_v85 (F := Ideal) x16 (Read.ridx_main_v86 (ix2 r (0 : Fin 1)) k) = x16 (ix2 (0 : Fin 1) k) := by
  rw [Read.val_main_v85_apply]
  exact congrArg x16 (funext fun a => by match a with | ⟨0, _⟩ => rfl | ⟨1, _⟩ => rfl)

/-- The projection's bias, repeated over the nodes. -/
theorem bias_out (r : Fin 1000000) :
    Read.val_main_v88 (F := Ideal) x17 (ix2 r (0 : Fin 1)) = x17 (ix1 (0 : Fin 1)) := by
  rw [Read.val_main_v88_apply, Read.val_main_v87_apply]
  exact congrArg x17 (funext fun a => by match a with | ⟨0, _⟩ => rfl)

/-- The two splats of the word of 1.0 are the extended real one. -/
theorem one_splat_a (i : S1000000x1.Idx) : Read.val_main_v92 (F := Ideal) i = 1 := by
  rw [Read.val_main_v92_apply, Read.val_main_cst_10_apply, Ideal.ofBits_def, Ideal.ofBits_one_f32]
theorem one_splat_b (i : S1000000x1.Idx) : Read.val_main_v94 (F := Ideal) i = 1 := by
  rw [Read.val_main_v94_apply, Read.val_main_cst_11_apply, Ideal.ofBits_def, Ideal.ofBits_one_f32]

/-- The last stage: the features of a node against the weight row, plus the bias, through 1 / (1 + e^(−z)). -/
theorem stage_out :
    Read.val_main_v95 (F := Ideal) x0 x1 x2 x3 x4 x5 x6 x7 x8 x9 x10 x11 x12 x13 x14 x15 x16 x17
      = Cert.Sage.proj (Read.val_main_v84 (F := Ideal) x0 x1 x2 x3 x4 x5 x6 x7 x8 x9 x10 x11 x12 x13 x14 x15) x16 (Cert.Sage.row1 x17) := by
  funext i
  obtain ⟨r, c, rfl⟩ : ∃ r c, i = ix2 r c := ⟨i 0, i 1, eq_ix2 i⟩
  obtain rfl : c = 0 := Subsingleton.elim _ _
  rw [Cert.Sage.proj_ix2, Read.val_main_v95_apply, Read.val_main_v93_apply, Read.val_main_v91_apply,
    Read.val_main_v90_apply, Read.val_main_v89_apply, Read.val_main_v86_apply, one_splat_a, one_splat_b, bias_out]
  generalize Read.val_main_v84 (F := Ideal) x0 x1 x2 x3 x4 x5 x6 x7 x8 x9 x10 x11 x12 x13 x14 x15 = h
  have hl : ∀ k : Fin 64, Read.lidx_main_v86 (ix2 r (0 : Fin 1)) k = ix2 r k := fun k =>
    funext fun a => by match a with | ⟨0, _⟩ => rfl | ⟨1, _⟩ => rfl
  simp only [weight_col, hl]
  rfl

/-! ## The first layer (4 input features) -/

/-- The aggregated features against the first weight matrix: the transposition is a swap of the weight's coordinates. -/
theorem l1_dot_agg (r : Fin 1000000) (j : Fin 64) :
    Read.val_main_v26 (F := Ideal) x0 x1 x2 (ix2 r j)
      = ∑ k : Fin 4, Read.val_main_v24 (F := Ideal) x0 x1 (ix2 r k) * x2 (ix2 j k) := by
  rw [Read.val_main_v26_apply]
  refine Finset.sum_congr rfl fun k _ => ?_
  rw [Read.val_main_v25_apply,
    show Read.lidx_main_v26 (ix2 r j) k = ix2 r k from funext fun a => by match a with | ⟨0, _⟩ => rfl | ⟨1, _⟩ => rfl,
    show Read.idx_main_v25 (Read.ridx_main_v26 (ix2 r j) k) = ix2 j k from funext fun a => by match a with | ⟨0, _⟩ => rfl | ⟨1, _⟩ => rfl]

/-- The node's own features against the second weight matrix. -/
theorem l1_dot_self (r : Fin 1000000) (j : Fin 64) :
    Read.val_main_v31 (F := Ideal) x0 x4 (ix2 r j)
      = ∑ k : Fin 4, x0 (ix2 r k) * x4 (ix2 j k) := by
  rw [Read.val_main_v31_apply]
  refine Finset.sum_congr rfl fun k _ => ?_
  rw [Read.val_main_v30_apply,
    show Read.lidx_main_v31 (ix2 r j) k = ix2 r k from funext fun a => by match a with | ⟨0, _⟩ => rfl | ⟨1, _⟩ => rfl,
    show Read.idx_main_v30 (Read.ridx_main_v31 (ix2 r j) k) = ix2 j k from funext fun a => by match a with | ⟨0, _⟩ => rfl | ⟨1, _⟩ => rfl]

/-- The bias, laid out as one row and repeated over the nodes, reads the vector at the feature. -/
theorem l1_row_b (r : Fin 1000000) (j : Fin 64) :
    Read.val_main_v28 (F := Ideal) x3 (ix2 r j) = x3 (ix1 j) := by
  rw [Read.val_main_v28_apply, Read.val_main_v27_apply]
  exact congrArg x3 (funext fun a => by match a with | ⟨0, _⟩ => rfl)

/-- The running mean likewise. -/
theorem l1_row_rm (r : Fin 1000000) (j : Fin 64) :
    Read.val_main_v34 (F := Ideal) x7 (ix2 r j) = x7 (ix1 j) := by
  rw [Read.val_main_v34_apply, Read.val_main_v33_apply]
  exact congrArg x7 (funext fun a => by match a with | ⟨0, _⟩ => rfl)

/-- The scale likewise. -/
theorem l1_row_g (r : Fin 1000000) (j : Fin 64) :
    Read.val_main_v43 (F := Ideal) x5 (ix2 r j) = x5 (ix1 j) := by
  rw [Read.val_main_v43_apply, Read.val_main_v42_apply]
  exact congrArg x5 (funext fun a => by match a with | ⟨0, _⟩ => rfl)

/-- The shift likewise. -/
theorem l1_row_be (r : Fin 1000000) (j : Fin 64) :
    Read.val_main_v46 (F := Ideal) x6 (ix2 r j) = x6 (ix1 j) := by
  rw [Read.val_main_v46_apply, Read.val_main_v45_apply]
  exact congrArg x6 (funext fun a => by match a with | ⟨0, _⟩ => rfl)

/-- The inverse standard deviation is computed on the vector, before the layout: (rv + ε)^(-1/2) at the feature. -/
theorem l1_row_rs (r : Fin 1000000) (j : Fin 64) :
    Read.val_main_v40 (F := Ideal) x8 (ix2 r j) = Ideal.rsqrt (x8 (ix1 j) + Cert.Sage.eps) := by
  rw [Read.val_main_v40_apply, Read.val_main_v39_apply, Read.val_main_v38_apply, Read.val_main_v37_apply,
    Read.val_main_v36_apply, Read.val_main_cst_5_apply,
    show Read.idx_main_v39 (Read.idx_main_v40 (ix2 r j)) = ix1 j from funext fun a => by match a with | ⟨0, _⟩ => rfl]
  rfl

/-- The rectifier's splat of the zero word is the extended real zero. -/
theorem l1_zero_splat (i : S1000000x64.Idx) : Read.val_main_call0_v0 (F := Ideal) i = (0 : EReal) := by
  rw [Read.val_main_call0_v0_apply, Read.val_main_call0_cst_apply, Ideal.ofBits_def, Ideal.ofBits_zero_f32]

/-- The first hidden layer: the reference adds the bias before the second product, the specification after it. -/
theorem stage_h1 :
    Read.val_main_v48 (F := Ideal) x0 x1 x2 x3 x4 x5 x6 x7 x8
      = Cert.Sage.layer4 (Read.val_main_v24 (F := Ideal) x0 x1) x0 x2 x4
          (Cert.Sage.row x3) (Cert.Sage.row x5) (Cert.Sage.row x6) (Cert.Sage.row x7) (Cert.Sage.row x8) := by
  funext i
  obtain ⟨r, j, rfl⟩ : ∃ r j, i = ix2 r j := ⟨i 0, i 1, eq_ix2 i⟩
  rw [Cert.Sage.layer4_ix2, Read.val_main_v48_apply, Read.val_main_v47_apply, Read.val_main_v44_apply,
    Read.val_main_v41_apply, Read.val_main_v35_apply, Read.val_main_v32_apply, Read.val_main_v29_apply,
    l1_dot_agg, l1_dot_self, l1_row_b, l1_row_rm, l1_row_rs, l1_row_g, l1_row_be, l1_zero_splat]
  unfold Cert.Sage.layerElt4 Cert.Sage.bnRelu
  simp only [Cert.Sage.row_ix2, Ideal.addf_def, Ideal.subf_def, Ideal.mulf_def, Ideal.maximumf_def]
  rw [add_right_comm]

/-! ## The second layer (64 input features) -/

/-- The aggregated features against the first weight matrix: the transposition is a swap of the weight's coordinates. -/
theorem l2_dot_agg (r : Fin 1000000) (j : Fin 64) :
    Read.val_main_v62 (F := Ideal) x0 x1 x2 x3 x4 x5 x6 x7 x8 x9 (ix2 r j)
      = ∑ k : Fin 64, Read.val_main_v60 (F := Ideal) x0 x1 x2 x3 x4 x5 x6 x7 x8 (ix2 r k) * x9 (ix2 j k) := by
  rw [Read.val_main_v62_apply]
  refine Finset.sum_congr rfl fun k _ => ?_
  rw [Read.val_main_v61_apply,
    show Read.lidx_main_v62 (ix2 r j) k = ix2 r k from funext fun a => by match a with | ⟨0, _⟩ => rfl | ⟨1, _⟩ => rfl,
    show Read.idx_main_v61 (Read.ridx_main_v62 (ix2 r j) k) = ix2 j k from funext fun a => by match a with | ⟨0, _⟩ => rfl | ⟨1, _⟩ => rfl]

/-- The node's own features against the second weight matrix. -/
theorem l2_dot_self (r : Fin 1000000) (j : Fin 64) :
    Read.val_main_v67 (F := Ideal) x0 x1 x2 x3 x4 x5 x6 x7 x8 x11 (ix2 r j)
      = ∑ k : Fin 64, Read.val_main_v48 (F := Ideal) x0 x1 x2 x3 x4 x5 x6 x7 x8 (ix2 r k) * x11 (ix2 j k) := by
  rw [Read.val_main_v67_apply]
  refine Finset.sum_congr rfl fun k _ => ?_
  rw [Read.val_main_v66_apply,
    show Read.lidx_main_v67 (ix2 r j) k = ix2 r k from funext fun a => by match a with | ⟨0, _⟩ => rfl | ⟨1, _⟩ => rfl,
    show Read.idx_main_v66 (Read.ridx_main_v67 (ix2 r j) k) = ix2 j k from funext fun a => by match a with | ⟨0, _⟩ => rfl | ⟨1, _⟩ => rfl]

/-- The bias, laid out as one row and repeated over the nodes, reads the vector at the feature. -/
theorem l2_row_b (r : Fin 1000000) (j : Fin 64) :
    Read.val_main_v64 (F := Ideal) x10 (ix2 r j) = x10 (ix1 j) := by
  rw [Read.val_main_v64_apply, Read.val_main_v63_apply]
  exact congrArg x10 (funext fun a => by match a with | ⟨0, _⟩ => rfl)

/-- The running mean likewise. -/
theorem l2_row_rm (r : Fin 1000000) (j : Fin 64) :
    Read.val_main_v70 (F := Ideal) x14 (ix2 r j) = x14 (ix1 j) := by
  rw [Read.val_main_v70_apply, Read.val_main_v69_apply]
  exact congrArg x14 (funext fun a => by match a with | ⟨0, _⟩ => rfl)

/-- The scale likewise. -/
theorem l2_row_g (r : Fin 1000000) (j : Fin 64) :
    Read.val_main_v79 (F := Ideal) x12 (ix2 r j) = x12 (ix1 j) := by
  rw [Read.val_main_v79_apply, Read.val_main_v78_apply]
  exact congrArg x12 (funext fun a => by match a with | ⟨0, _⟩ => rfl)

/-- The shift likewise. -/
theorem l2_row_be (r : Fin 1000000) (j : Fin 64) :
    Read.val_main_v82 (F := Ideal) x13 (ix2 r j) = x13 (ix1 j) := by
  rw [Read.val_main_v82_apply, Read.val_main_v81_apply]
  exact congrArg x13 (funext fun a => by match a with | ⟨0, _⟩ => rfl)

/-- The inverse standard deviation is computed on the vector, before the layout: (rv + ε)^(-1/2) at the feature. -/
theorem l2_row_rs (r : Fin 1000000) (j : Fin 64) :
    Read.val_main_v76 (F := Ideal) x15 (ix2 r j) = Ideal.rsqrt (x15 (ix1 j) + Cert.Sage.eps) := by
  rw [Read.val_main_v76_apply, Read.val_main_v75_apply, Read.val_main_v74_apply, Read.val_main_v73_apply,
    Read.val_main_v72_apply, Read.val_main_cst_9_apply,
    show Read.idx_main_v75 (Read.idx_main_v76 (ix2 r j)) = ix1 j from funext fun a => by match a with | ⟨0, _⟩ => rfl]
  rfl

/-- The rectifier's splat of the zero word is the extended real zero. -/
theorem l2_zero_splat (i : S1000000x64.Idx) : Read.val_main_call1_v0 (F := Ideal) i = (0 : EReal) := by
  rw [Read.val_main_call1_v0_apply, Read.val_main_call1_cst_apply, Ideal.ofBits_def, Ideal.ofBits_zero_f32]

/-- The second hidden layer, on the second aggregation and the first layer's output. -/
theorem stage_h2 :
    Read.val_main_v84 (F := Ideal) x0 x1 x2 x3 x4 x5 x6 x7 x8 x9 x10 x11 x12 x13 x14 x15
      = Cert.Sage.layer64 (Read.val_main_v60 (F := Ideal) x0 x1 x2 x3 x4 x5 x6 x7 x8) (Read.val_main_v48 (F := Ideal) x0 x1 x2 x3 x4 x5 x6 x7 x8) x9 x11
          (Cert.Sage.row x10) (Cert.Sage.row x12) (Cert.Sage.row x13) (Cert.Sage.row x14) (Cert.Sage.row x15) := by
  funext i
  obtain ⟨r, j, rfl⟩ : ∃ r j, i = ix2 r j := ⟨i 0, i 1, eq_ix2 i⟩
  rw [Cert.Sage.layer64_ix2, Read.val_main_v84_apply, Read.val_main_v83_apply, Read.val_main_v80_apply,
    Read.val_main_v77_apply, Read.val_main_v71_apply, Read.val_main_v68_apply, Read.val_main_v65_apply,
    l2_dot_agg, l2_dot_self, l2_row_b, l2_row_rm, l2_row_rs, l2_row_g, l2_row_be, l2_zero_splat]
  unfold Cert.Sage.layerElt64 Cert.Sage.bnRelu
  simp only [Cert.Sage.row_ix2, Ideal.addf_def, Ideal.subf_def, Ideal.mulf_def, Ideal.maximumf_def]
  rw [add_right_comm]

end Cert.ReferenceIdeal.RefValue

end
-- ==== Proof.Network.lean ====
/-
  The whole network as ONE function of the eighteen arguments, and the reference as that function.

      hidden1 = layer4  (mean4 x e)        x       W1l W1r b1 g1 be1 rm1 rv1
      hidden2 = layer64 (mean64 hidden1 e) hidden1 W2l W2r b2 g2 be2 rm2 rv2
      network = proj hidden2 Wp bp

  with `e` the edge list. The reference's run ends at its last stage; stage by stage that is `network`: the two
  aggregates are the neighbourhood means (by definition), the two dense layers and the projection are the
  specification's functions (one reordering of a sum apart).
-/
import proofs.«149538_j9431748182756_1_alg».proof.Proof.Spec
import proofs.«149538_j9431748182756_1_alg».proof.Proof.Aggregate
import proofs.«149538_j9431748182756_1_alg».proof.Proof.RefStages

noncomputable section

namespace Cert.Sage

open Cert.ReferenceIdeal Idealize.ShloMosaic Cert.Sage.Agg

/-- The first layer's output. -/
def hidden1 (x0 : (⟨S1000000x4, .f32⟩ : BufTy).Contents (Elt Ideal)) (x1 : (⟨S2x2500000, .i32⟩ : BufTy).Contents (Elt Ideal))
    (x2 : (⟨S64x4, .f32⟩ : BufTy).Contents (Elt Ideal)) (x3 : (⟨S64, .f32⟩ : BufTy).Contents (Elt Ideal)) (x4 : (⟨S64x4, .f32⟩ : BufTy).Contents (Elt Ideal))
    (x5 x6 x7 x8 : (⟨S64, .f32⟩ : BufTy).Contents (Elt Ideal)) : FVec Ideal SN64 .f32 :=
  layer4 (mean4 (F := Ideal) x0 x1) x0 x2 x4 (row x3) (row x5) (row x6) (row x7) (row x8)

/-- The second layer's output. -/
def hidden2 (x0 : (⟨S1000000x4, .f32⟩ : BufTy).Contents (Elt Ideal)) (x1 : (⟨S2x2500000, .i32⟩ : BufTy).Contents (Elt Ideal))
    (x2 : (⟨S64x4, .f32⟩ : BufTy).Contents (Elt Ideal)) (x3 : (⟨S64, .f32⟩ : BufTy).Contents (Elt Ideal)) (x4 : (⟨S64x4, .f32⟩ : BufTy).Contents (Elt Ideal))
    (x5 x6 x7 x8 : (⟨S64, .f32⟩ : BufTy).Contents (Elt Ideal)) (x9 : (⟨S64x64, .f32⟩ : BufTy).Contents (Elt Ideal)) (x10 : (⟨S64, .f32⟩ : BufTy).Contents (Elt Ideal))
    (x11 : (⟨S64x64, .f32⟩ : BufTy).Contents (Elt Ideal)) (x12 x13 x14 x15 : (⟨S64, .f32⟩ : BufTy).Contents (Elt Ideal)) : FVec Ideal SN64 .f32 :=
  layer64 (mean64 (F := Ideal) (hidden1 x0 x1 x2 x3 x4 x5 x6 x7 x8) x1) (hidden1 x0 x1 x2 x3 x4 x5 x6 x7 x8) x9 x11 (row x10) (row x12) (row x13) (row x14) (row x15)

/-- The network's output: one probability per node. -/
def network (x0 : (⟨S1000000x4, .f32⟩ : BufTy).Contents (Elt Ideal)) (x1 : (⟨S2x2500000, .i32⟩ : BufTy).Contents (Elt Ideal))
    (x2 : (⟨S64x4, .f32⟩ : BufTy).Contents (Elt Ideal)) (x3 : (⟨S64, .f32⟩ : BufTy).Contents (Elt Ideal)) (x4 : (⟨S64x4, .f32⟩ : BufTy).Contents (Elt Ideal))
    (x5 x6 x7 x8 : (⟨S64, .f32⟩ : BufTy).Contents (Elt Ideal)) (x9 : (⟨S64x64, .f32⟩ : BufTy).Contents (Elt Ideal)) (x10 : (⟨S64, .f32⟩ : BufTy).Contents (Elt Ideal))
    (x11 : (⟨S64x64, .f32⟩ : BufTy).Contents (Elt Ideal)) (x12 x13 x14 x15 : (⟨S64, .f32⟩ : BufTy).Contents (Elt Ideal)) (x16 : (⟨S1x64, .f32⟩ : BufTy).Contents (Elt Ideal)) (x17 : (⟨S1, .f32⟩ : BufTy).Contents (Elt Ideal)) : FVec Ideal SN1 .f32 :=
  proj (hidden2 x0 x1 x2 x3 x4 x5 x6 x7 x8 x9 x10 x11 x12 x13 x14 x15) x16 (row1 x17)

/-- The reference's last stage is the network. -/
theorem ref_network (x0 : (⟨S1000000x4, .f32⟩ : BufTy).Contents (Elt Ideal)) (x1 : (⟨S2x2500000, .i32⟩ : BufTy).Contents (Elt Ideal))
    (x2 : (⟨S64x4, .f32⟩ : BufTy).Contents (Elt Ideal)) (x3 : (⟨S64, .f32⟩ : BufTy).Contents (Elt Ideal)) (x4 : (⟨S64x4, .f32⟩ : BufTy).Contents (Elt Ideal))
    (x5 x6 x7 x8 : (⟨S64, .f32⟩ : BufTy).Contents (Elt Ideal)) (x9 : (⟨S64x64, .f32⟩ : BufTy).Contents (Elt Ideal)) (x10 : (⟨S64, .f32⟩ : BufTy).Contents (Elt Ideal))
    (x11 : (⟨S64x64, .f32⟩ : BufTy).Contents (Elt Ideal)) (x12 x13 x14 x15 : (⟨S64, .f32⟩ : BufTy).Contents (Elt Ideal)) (x16 : (⟨S1x64, .f32⟩ : BufTy).Contents (Elt Ideal)) (x17 : (⟨S1, .f32⟩ : BufTy).Contents (Elt Ideal)) :
    Read.val_main_v95 (F := Ideal) x0 x1 x2 x3 x4 x5 x6 x7 x8 x9 x10 x11 x12 x13 x14 x15 x16 x17 = network x0 x1 x2 x3 x4 x5 x6 x7 x8 x9 x10 x11 x12 x13 x14 x15 x16 x17 := by
  rw [Cert.ReferenceIdeal.RefValue.stage_out, Cert.ReferenceIdeal.RefValue.stage_h2, ref_mean64,
    Cert.ReferenceIdeal.RefValue.stage_h1, ref_mean4]
  rfl

end Cert.Sage

end
-- ==== Proof.RunValue.lean ====
/-
  The idealized kernel's run, with its RESULT named.

  The program is three pipelined regions among stretches of host operations. Its run is assembled from the segments
  exactly as the frame is; the only difference is what is read off the last boundary: beside the eighteen argument
  arrays (unchanged), the result buffer holds the last boundary's contents of that buffer — what the third region's
  write-backs leave. Everything about WHICH values those are is in the modules that follow.
-/
import proofs.«149538_j9431748182756_1_alg».proof.Proof.KernelIdealFrameP

set_option maxRecDepth 16384

noncomputable section

namespace Cert.KernelIdeal.RunValue

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault; the result buffer ends at the last boundary's contents and
    the arguments end as launched. -/
theorem run : θ_run defs (onTc (τ := τ) (main (F := F))) ⟨m, fun _ => 0, ρ⟩ (fun r => ∀ c : Dev nD,
      r.2.mem ((c.tc : Thread nD τ).loc main_v50) = W6 m ρ c (Proc.devRef .tc main_v50) ∧
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v50 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c),
       (h c _ (mem_uc main_arg13 (by decide))).trans (W6_main_arg13 m ρ c),
       (h c _ (mem_uc main_arg14 (by decide))).trans (W6_main_arg14 m ρ c),
       (h c _ (mem_uc main_arg15 (by decide))).trans (W6_main_arg15 m ρ c),
       (h c _ (mem_uc main_arg16 (by decide))).trans (W6_main_arg16 m ρ c),
       (h c _ (mem_uc main_arg17 (by decide))).trans (W6_main_arg17 m ρ c)⟩)

end Cert.KernelIdeal.RunValue

end
-- ==== Proof.HostReads.lean ====
/-
  What each region is entered with, in terms of the launch memory.

  Between the launch and the first region the host computes the in-degrees and the mean of the node features over
  in-neighbours, and reshapes five parameter vectors to one-row matrices; between the first and the second region it
  computes the mean of the first layer's output; before the third it reshapes the last bias to a one-by-one matrix.
  A region changes only its own output array, and no host operation writes an argument or an earlier result, so
  every buffer a later stretch reads is still what its producer left.
-/
import proofs.«149538_j9431748182756_1_alg».proof.Proof.KernelIdealFrameP
import proofs.«149538_j9431748182756_1_alg».proof.Proof.Aggregate
import proofs.«149538_j9431748182756_1_alg».proof.Proof.Spec
import Idealize.ShloMosaic.Lib.ValueLayout
import Idealize.ShloMosaic.Lib.StableHlo.Run

set_option maxRecDepth 16384

noncomputable section

namespace Cert.KernelIdeal.HostValue

open Cert.KernelIdeal Cert.KernelIdeal.Gen Cert.KernelIdeal.GenP
open Idealize.ShloMosaic Idealize.ShloMosaic.TcCoe Idealize.ShloMosaic.StableHlo Idealize.SL.Sem
open Idealize.ShloMosaic.ValueIdx
open Cert.Sage Cert.Sage.Agg

variable (m : (ℓ : Loc nD τ sig) → Buf (Elt Ideal) ℓ) (ρ : Dev nD → PrngReg) (c : Dev nD)

/-- A vector reshaped to a one-row matrix is that row. -/
theorem shapeCast_row (v : FVec Ideal SVec64 .f32) (h : SVec64.ShapeCasts SRow) : shapeCast SRow v h = row v := by
  funext i
  rw [eq_ix2 i]
  exact shapeCast_a_1a_apply v h _ _

/-- A one-element vector reshaped to a one-by-one matrix. -/
theorem shapeCast_row1 (v : FVec Ideal SVec1 .f32) (h : SVec1.ShapeCasts SOne) : shapeCast SOne v h = row1 v := by
  funext i
  rw [eq_ix2 i]
  refine (shapeCast_a_1a_apply v h _ _).trans ?_
  have h1 : (i 1).val = 0 := by have := (i 1).isLt; simp at this; omega
  exact congrArg v (funext fun a => match a with | ⟨0, _⟩ => Fin.ext h1)

/-! ## The first region's entry -/

/-- The first window holds the mean of the node features over in-neighbours. -/
theorem entry0_agg : V1 m ρ c main_v24 = mean4 (F := Ideal) (m ((c : Thread nD τ).loc main_arg0)) (m ((c : Thread nD τ).loc main_arg1)) := by
  show StableHlo.after hostOps0 (W0 m ρ c) (Proc.devRef .tc main_v24) = _
  after_results_simp <;> rfl
theorem entry0_arg0 : V1 m ρ c main_arg0 = (m ((c : Thread nD τ).loc main_arg0)) := by
  show StableHlo.after hostOps0 (W0 m ρ c) (Proc.devRef .tc main_arg0) = _
  after_results_simp <;> rfl
theorem entry0_arg2 : V1 m ρ c main_arg2 = (m ((c : Thread nD τ).loc main_arg2)) := by
  show StableHlo.after hostOps0 (W0 m ρ c) (Proc.devRef .tc main_arg2) = _
  after_results_simp <;> rfl
theorem entry0_arg4 : V1 m ρ c main_arg4 = (m ((c : Thread nD τ).loc main_arg4)) := by
  show StableHlo.after hostOps0 (W0 m ρ c) (Proc.devRef .tc main_arg4) = _
  after_results_simp <;> rfl
theorem entry0_v25 : V1 m ρ c main_v25 = row (m ((c : Thread nD τ).loc main_arg3)) := by
  show StableHlo.after hostOps0 (W0 m ρ c) (Proc.devRef .tc main_v25) = _
  after_results_simp
  exact shapeCast_row _ _
theorem entry0_v26 : V1 m ρ c main_v26 = row (m ((c : Thread nD τ).loc main_arg5)) := by
  show StableHlo.after hostOps0 (W0 m ρ c) (Proc.devRef .tc main_v26) = _
  after_results_simp
  exact shapeCast_row _ _
theorem entry0_v27 : V1 m ρ c main_v27 = row (m ((c : Thread nD τ).loc main_arg6)) := by
  show StableHlo.after hostOps0 (W0 m ρ c) (Proc.devRef .tc main_v27) = _
  after_results_simp
  exact shapeCast_row _ _
theorem entry0_v28 : V1 m ρ c main_v28 = row (m ((c : Thread nD τ).loc main_arg7)) := by
  show StableHlo.after hostOps0 (W0 m ρ c) (Proc.devRef .tc main_v28) = _
  after_results_simp
  exact shapeCast_row _ _
theorem entry0_v29 : V1 m ρ c main_v29 = row (m ((c : Thread nD τ).loc main_arg8)) := by
  show StableHlo.after hostOps0 (W0 m ρ c) (Proc.devRef .tc main_v29) = _
  after_results_simp
  exact shapeCast_row _ _

/-! ## Buffers the first region leaves alone -/
theorem exit0_arg9 : W2 m ρ c (Proc.devRef .tc main_arg9) = (m ((c : Thread nD τ).loc main_arg9)) :=
  (W2_of_ne m ρ c main_arg9 (by decide)).trans (by
    show StableHlo.after hostOps0 (W0 m ρ c) (Proc.devRef .tc main_arg9) = _
    after_results_simp <;> rfl)
theorem exit0_arg10 : W2 m ρ c (Proc.devRef .tc main_arg10) = (m ((c : Thread nD τ).loc main_arg10)) :=
  (W2_of_ne m ρ c main_arg10 (by decide)).trans (by
    show StableHlo.after hostOps0 (W0 m ρ c) (Proc.devRef .tc main_arg10) = _
    after_results_simp <;> rfl)
theorem exit0_arg11 : W2 m ρ c (Proc.devRef .tc main_arg11) = (m ((c : Thread nD τ).loc main_arg11)) :=
  (W2_of_ne m ρ c main_arg11 (by decide)).trans (by
    show StableHlo.after hostOps0 (W0 m ρ c) (Proc.devRef .tc main_arg11) = _
    after_results_simp <;> rfl)
theorem exit0_arg12 : W2 m ρ c (Proc.devRef .tc main_arg12) = (m ((c : Thread nD τ).loc main_arg12)) :=
  (W2_of_ne m ρ c main_arg12 (by decide)).trans (by
    show StableHlo.after hostOps0 (W0 m ρ c) (Proc.devRef .tc main_arg12) = _
    after_results_simp <;> rfl)
theorem exit0_arg13 : W2 m ρ c (Proc.devRef .tc main_arg13) = (m ((c : Thread nD τ).loc main_arg13)) :=
  (W2_of_ne m ρ c main_arg13 (by decide)).trans (by
    show StableHlo.after hostOps0 (W0 m ρ c) (Proc.devRef .tc main_arg13) = _
    after_results_simp <;> rfl)
theorem exit0_arg14 : W2 m ρ c (Proc.devRef .tc main_arg14) = (m ((c : Thread nD τ).loc main_arg14)) :=
  (W2_of_ne m ρ c main_arg14 (by decide)).trans (by
    show StableHlo.after hostOps0 (W0 m ρ c) (Proc.devRef .tc main_arg14) = _
    after_results_simp <;> rfl)
theorem exit0_arg15 : W2 m ρ c (Proc.devRef .tc main_arg15) = (m ((c : Thread nD τ).loc main_arg15)) :=
  (W2_of_ne m ρ c main_arg15 (by decide)).trans (by
    show StableHlo.after hostOps0 (W0 m ρ c) (Proc.devRef .tc main_arg15) = _
    after_results_simp <;> rfl)
theorem exit0_arg16 : W2 m ρ c (Proc.devRef .tc main_arg16) = (m ((c : Thread nD τ).loc main_arg16)) :=
  (W2_of_ne m ρ c main_arg16 (by decide)).trans (by
    show StableHlo.after hostOps0 (W0 m ρ c) (Proc.devRef .tc main_arg16) = _
    after_results_simp <;> rfl)
theorem exit0_arg17 : W2 m ρ c (Proc.devRef .tc main_arg17) = (m ((c : Thread nD τ).loc main_arg17)) :=
  (W2_of_ne m ρ c main_arg17 (by decide)).trans (by
    show StableHlo.after hostOps0 (W0 m ρ c) (Proc.devRef .tc main_arg17) = _
    after_results_simp <;> rfl)
/-- The source indices (row 0 of the edge list, flattened). -/
theorem exit0_src : W2 m ρ c (Proc.devRef .tc main_v1) = Cert.ReferenceIdeal.Read.val_main_v1 (F := Ideal) (m ((c : Thread nD τ).loc main_arg1)) :=
  (W2_of_ne m ρ c main_v1 (by decide)).trans (by
    show StableHlo.after hostOps0 (W0 m ρ c) (Proc.devRef .tc main_v1) = _
    after_results_simp <;> rfl)
/-- The destination indices (row 1 of the edge list, flattened). -/
theorem exit0_dst : W2 m ρ c (Proc.devRef .tc main_v3) = Cert.ReferenceIdeal.Read.val_main_v3 (F := Ideal) (m ((c : Thread nD τ).loc main_arg1)) :=
  (W2_of_ne m ρ c main_v3 (by decide)).trans (by
    show StableHlo.after hostOps0 (W0 m ρ c) (Proc.devRef .tc main_v3) = _
    after_results_simp <;> rfl)
/-- The inverse in-degrees, as a column. -/
theorem exit0_invdeg : W2 m ρ c (Proc.devRef .tc main_v12) = Cert.ReferenceIdeal.Read.val_main_v12 (F := Ideal) (m ((c : Thread nD τ).loc main_arg1)) :=
  (W2_of_ne m ρ c main_v12 (by decide)).trans (by
    show StableHlo.after hostOps0 (W0 m ρ c) (Proc.devRef .tc main_v12) = _
    after_results_simp <;> rfl)

/-! ## The second region's entry -/

/-- The second window holds what the first region left in its output array. -/
theorem entry1_h : V3 m ρ c main_v30 = (dat0 (V1 m ρ) c).arrAt 9 cfg0.N := by
  refine Eq.trans ?_ (W2_arr m ρ c 9)
  show StableHlo.after hostOps1 (W2 m ρ c) (Proc.devRef .tc main_v30) = _
  after_results_simp <;> rfl

/-- The first window holds the mean of the first region's output over in-neighbours. -/
theorem entry1_agg : V3 m ρ c main_v42 = mean64 (F := Ideal) (V3 m ρ c main_v30) (m ((c : Thread nD τ).loc main_arg1)) := by
  have hh : V3 m ρ c main_v30 = W2 m ρ c (Proc.devRef .tc main_v30) := by
    show StableHlo.after hostOps1 (W2 m ρ c) (Proc.devRef .tc main_v30) = _
    after_results_simp <;> rfl
  rw [hh]
  show StableHlo.after hostOps1 (W2 m ρ c) (Proc.devRef .tc main_v42) = _
  after_results_simp
  rw [exit0_src, exit0_dst, exit0_invdeg]
  rfl
theorem entry1_arg9 : V3 m ρ c main_arg9 = (m ((c : Thread nD τ).loc main_arg9)) := by
  show StableHlo.after hostOps1 (W2 m ρ c) (Proc.devRef .tc main_arg9) = _
  after_results_simp
  exact exit0_arg9 m ρ c
theorem entry1_arg11 : V3 m ρ c main_arg11 = (m ((c : Thread nD τ).loc main_arg11)) := by
  show StableHlo.after hostOps1 (W2 m ρ c) (Proc.devRef .tc main_arg11) = _
  after_results_simp
  exact exit0_arg11 m ρ c
theorem entry1_v43 : V3 m ρ c main_v43 = row (m ((c : Thread nD τ).loc main_arg10)) := by
  show StableHlo.after hostOps1 (W2 m ρ c) (Proc.devRef .tc main_v43) = _
  after_results_simp
  rw [exit0_arg10]
  exact shapeCast_row _ _
theorem entry1_v44 : V3 m ρ c main_v44 = row (m ((c : Thread nD τ).loc main_arg12)) := by
  show StableHlo.after hostOps1 (W2 m ρ c) (Proc.devRef .tc main_v44) = _
  after_results_simp
  rw [exit0_arg12]
  exact shapeCast_row _ _
theorem entry1_v45 : V3 m ρ c main_v45 = row (m ((c : Thread nD τ).loc main_arg13)) := by
  show StableHlo.after hostOps1 (W2 m ρ c) (Proc.devRef .tc main_v45) = _
  after_results_simp
  rw [exit0_arg13]
  exact shapeCast_row _ _
theorem entry1_v46 : V3 m ρ c main_v46 = row (m ((c : Thread nD τ).loc main_arg14)) := by
  show StableHlo.after hostOps1 (W2 m ρ c) (Proc.devRef .tc main_v46) = _
  after_results_simp
  rw [exit0_arg14]
  exact shapeCast_row _ _
theorem entry1_v47 : V3 m ρ c main_v47 = row (m ((c : Thread nD τ).loc main_arg15)) := by
  show StableHlo.after hostOps1 (W2 m ρ c) (Proc.devRef .tc main_v47) = _
  after_results_simp
  rw [exit0_arg15]
  exact shapeCast_row _ _

/-! ## The third region's entry -/
theorem exit1_arg16 : W4 m ρ c (Proc.devRef .tc main_arg16) = (m ((c : Thread nD τ).loc main_arg16)) :=
  (W4_of_ne m ρ c main_arg16 (by decide)).trans (by
    show StableHlo.after hostOps1 (W2 m ρ c) (Proc.devRef .tc main_arg16) = _
    after_results_simp
    exact exit0_arg16 m ρ c)
theorem exit1_arg17 : W4 m ρ c (Proc.devRef .tc main_arg17) = (m ((c : Thread nD τ).loc main_arg17)) :=
  (W4_of_ne m ρ c main_arg17 (by decide)).trans (by
    show StableHlo.after hostOps1 (W2 m ρ c) (Proc.devRef .tc main_arg17) = _
    after_results_simp
    exact exit0_arg17 m ρ c)
/-- The first window holds what the second region left in its output array. -/
theorem entry2_h : V5 m ρ c main_v48 = (dat1 (V3 m ρ) c).arrAt 9 cfg1.N := by
  refine Eq.trans ?_ (W4_arr m ρ c 9)
  show StableHlo.after hostOps2 (W4 m ρ c) (Proc.devRef .tc main_v48) = _
  after_results_simp <;> rfl
theorem entry2_arg16 : V5 m ρ c main_arg16 = (m ((c : Thread nD τ).loc main_arg16)) := by
  show StableHlo.after hostOps2 (W4 m ρ c) (Proc.devRef .tc main_arg16) = _
  after_results_simp
  exact exit1_arg16 m ρ c
theorem entry2_v49 : V5 m ρ c main_v49 = row1 (m ((c : Thread nD τ).loc main_arg17)) := by
  show StableHlo.after hostOps2 (W4 m ρ c) (Proc.devRef .tc main_v49) = _
  after_results_simp
  rw [exit1_arg17]
  exact shapeCast_row1 _ _

end Cert.KernelIdeal.HostValue

end
-- ==== Proof.Region0.lean ====
import proofs.«149538_j9431748182756_1_alg».proof.Proof.KernelIdealFrameP
import proofs.«149538_j9431748182756_1_alg».proof.Proof.Spec
import Idealize.ShloMosaic.Lib.Pipeline.Value
import Idealize.ShloMosaic.Lib.ValueIdx
import Idealize.ShloMosaic.PureOps.Ideal.Laws

/-!
  The first dense layer, read off the kernel's first region.

  The region walks the 1000000 nodes in 100 blocks of 10000 rows. At a block it holds the block's rows of the
  aggregated features and of the node features, and, whole, the two weight matrices and the five one-row parameter
  matrices; it writes the block's rows of

      max ( ((agg·Wlᵀ + h·Wrᵀ + b − rm) · (rv + ε)^(-1/2)) · g + be , 0 ).

  Three steps: the body's arithmetic at one entry of a block; what one block's write-back is, as the block's rows of
  the whole-array layer function; the blocks cover every row, so the array ends as that function.
-/

noncomputable section

open Idealize.ShloMosaic Idealize.ShloMosaic.TcCoe Idealize.ShloMosaic.ValueIdx Idealize.SL.Sem
open Idealize.ShloMosaic.Pipeline (Dat)

namespace Cert.KernelIdeal.RegionValue

open Cert.KernelIdeal Cert.KernelIdeal.Gen Cert.KernelIdeal.GenP

/-! ## The body's arithmetic at one entry of a block -/
/-- A one-row matrix broadcast down the rows of a block reads its own entry of the same column. -/
theorem bcastRow_apply (v : FVec Ideal S1x64 .f32) (r : Fin 10000) (j : Fin 64) :
    broadcastTo S10000x64 v broadcasts_S1x64_S10000x64 (ix2 r j) = v (ix2 (0 : Fin 1) j) :=
  broadcastTo_apply v broadcasts_S1x64_S10000x64 (ix2 r j) (ix2 (0 : Fin 1) j) (fun a => match a with
    | ⟨0, _⟩ => by show 0 = if (1 : Nat) = 1 then 0 else r.val; rw [if_pos rfl]
    | ⟨1, _⟩ => by show j.val = if (64 : Nat) = 1 then 0 else j.val; rw [if_neg (by decide)])

/-- The transposed weight matrix at (k, j) is the weight matrix at (j, k). -/
theorem transposeW_apply (W : FVec Ideal S64x4 .bf16) (k : Fin 4) (j : Fin 64) :
    transpose S4x64 [1, 0] W transposes_S64x4_p1_0_S4x64 (ix2 k j) = W (ix2 j k) :=
  transpose_apply [1, 0] W transposes_S64x4_p1_0_S4x64 (ix2 k j) (ix2 j k) (fun b => match b with
    | ⟨0, _⟩ => rfl
    | ⟨1, _⟩ => rfl)

local notation "D4" => dot_S10000x4_S4x64_S10000x64_1_0_0_1_n_n

theorem lhsD4_0 (i : S10000x64.Idx) (q : (D4).contr.Idx) : ((D4).lhsIdx i q 0).val = (i 0).val := by
  unfold DotDims.lhsIdx
  rw [dif_neg (show ¬(0 : Fin S10000x4.rank) ∈ (D4).lhsBatch by decide), dif_pos (show (0 : Fin S10000x4.rank) ∈ (D4).lhsNonContracting by decide)]
  rfl
theorem lhsD4_1 (i : S10000x64.Idx) (q : (D4).contr.Idx) : ((D4).lhsIdx i q 1).val = (q ⟨0, by decide⟩).val :=
  (D4).lhsIdx_val_of_single rfl i q
theorem rhsD4_0 (i : S10000x64.Idx) (q : (D4).contr.Idx) : ((D4).rhsIdx i q 0).val = (q ⟨0, by decide⟩).val :=
  (D4).rhsIdx_val_of_single rfl i q
theorem rhsD4_1 (i : S10000x64.Idx) (q : (D4).contr.Idx) : ((D4).rhsIdx i q 1).val = (i 1).val := by
  unfold DotDims.rhsIdx
  rw [dif_neg (show ¬(1 : Fin S4x64.rank) ∈ (D4).rhsBatch by decide), dif_pos (show (1 : Fin S4x64.rank) ∈ (D4).rhsNonContracting by decide)]
  rfl

/-- A block of rows times the transpose of a weight matrix, accumulated from zero: entry (r, j) is the
    inner product of row r of the block with row j of the weights. -/
theorem matmulT_apply (x : FVec Ideal S10000x4 .bf16) (W : FVec Ideal S64x4 .bf16) (r : Fin 10000) (j : Fin 64) :
    matmul (D4) none x (transpose S4x64 [1, 0] W transposes_S64x4_p1_0_S4x64) (constant (F := Ideal) S10000x64 .f32 0x00000000#32) (ix2 r j)
      = ∑ k : Fin 4, x (ix2 r k) * W (ix2 j k) := by
  refine (Ideal.matmul_constant_zero_apply (D4) none x _ (ix2 r j)).trans ?_
  rw [← Equiv.sum_comp (ValueIdx.contrEquiv1 (D4) 4 rfl rfl).symm]
  refine Finset.sum_congr rfl fun k _ => ?_
  have hk := ValueIdx.contrEquiv1_symm_val (D4) 4 rfl rfl k
  have el : (D4).lhsIdx (ix2 r j) ((ValueIdx.contrEquiv1 (D4) 4 rfl rfl).symm k) = ix2 r k := funext fun a => Fin.ext (by
    match a with
    | ⟨0, _⟩ => exact lhsD4_0 _ _
    | ⟨1, _⟩ => exact (lhsD4_1 _ _).trans hk)
  have er : (D4).rhsIdx (ix2 r j) ((ValueIdx.contrEquiv1 (D4) 4 rfl rfl).symm k) = ix2 k j := funext fun a => Fin.ext (by
    match a with
    | ⟨0, _⟩ => exact (rhsD4_0 _ _).trans hk
    | ⟨1, _⟩ => exact rhsD4_1 _ _)
  rw [el, er, transposeW_apply]

/-- The body's arithmetic at row r, column j of a block. -/
theorem pay0_apply (agg h : Vec Ideal S10000x4 .f32) (Wl Wr : Vec Ideal S64x4 .f32) (b rv rm g be : Vec Ideal S1x64 .f32)
    (r : Fin 10000) (j : Fin 64) :
    k0_pay1 (k0_pay2 agg h Wl Wr b rv rm g be) (Scalar.ofBits .f32 0x00000000#32) (ix2 r j)
      = Cert.Sage.bnRelu ((∑ k : Fin 4, agg (ix2 r k) * Wl (ix2 j k)) + ∑ k : Fin 4, h (ix2 r k) * Wr (ix2 j k))
          (b (ix2 (0 : Fin 1) j)) (g (ix2 (0 : Fin 1) j)) (be (ix2 (0 : Fin 1) j)) (rm (ix2 (0 : Fin 1) j)) (rv (ix2 (0 : Fin 1) j)) := by
  unfold Cert.Sage.bnRelu Cert.Sage.eps k0_pay1 k0_pay2
  simp only [shapeCast_self]
  simp only [maximumf_apply, addf_apply, mulf_apply, subf_apply, broadcast_apply, bcastRow_apply, matmulT_apply, truncf_apply]
  rw [show (FloatOps.ofBits (F := Ideal) .f32 0x00000000#32) = (0 : EReal) from Ideal.ofBits_zero_f32]
  rw [matmulT_apply (truncf .bf16 agg bitsLt_bf16_f32) (truncf .bf16 Wl bitsLt_bf16_f32) r j,
    matmulT_apply (truncf .bf16 h bitsLt_bf16_f32) (truncf .bf16 Wr bitsLt_bf16_f32) r j]
  rfl

/-! ## One block's write-back -/

section Blocks

variable (V : (c : Dev nD) → (b : Ref sig .tc) → Buf (Elt Ideal) ((c : Thread nD τ).loc b))

theorem hz : (![0, 0] : Fin 2 → Nat) = fun _ => 0 := funext fun a => by fin_cases a <;> rfl

/-- The block index maps over the grid: the two feature arrays and the output move down one row block per
    point; the weights and the one-row parameters stay at block (0, 0). -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = t.val ∧ win0_9.index t (1 : Fin 2) = 0 :=
  (by decide +kernel : ∀ t : Fin grid0.N, _)

theorem lt_N0 (t : Fin cfg0.N) : t.val < 100 := lt_of_lt_of_eq t.isLt N_0

/-- Row r of point t's block is row 10000·t + r of the array. -/
theorem row_lt (t : Fin cfg0.N) (r : Fin 10000) : t.val * 10000 + r.val < 1000000 := by
  have := lt_N0 t; have := r.isLt; omega

/-- The aggregated features' block at point t: rows 10000·t … 10000·t + 9999 of the array. -/
theorem iblk0_0_apply (c : Dev nD) (t : Fin cfg0.N) (r : Fin 10000) (k : Fin 4) :
    (iblk0 V c 0 t : Vec Ideal S10000x4 .f32) (ix2 r k)
      = (V c main_v24 : S1000000x4.Idx → EReal) (ix2 ⟨t.val * 10000 + r.val, row_lt t r⟩ k) := by
  obtain ⟨e0, e1, -⟩ := idx_facts0 t
  unfold iblk0
  rw [View.read_apply]
  show V c main_v24 _ = V c main_v24 _
  congr 1
  funext a
  apply Fin.ext
  match a with
  | ⟨0, _⟩ => show win0_0.index t (0 : Fin 2) * 10000 + 1 * r.val = t.val * 10000 + r.val; rw [e0]; omega
  | ⟨1, _⟩ => show win0_0.index t (1 : Fin 2) * 4 + 1 * k.val = k.val; rw [e1]; omega

/-- The node features' block at point t, likewise. -/
theorem iblk0_1_apply (c : Dev nD) (t : Fin cfg0.N) (r : Fin 10000) (k : Fin 4) :
    (iblk0 V c 1 t : Vec Ideal S10000x4 .f32) (ix2 r k)
      = (V c main_arg0 : S1000000x4.Idx → EReal) (ix2 ⟨t.val * 10000 + r.val, row_lt t r⟩ k) := by
  obtain ⟨-, -, e0, e1, -⟩ := idx_facts0 t
  unfold iblk0
  rw [View.read_apply]
  show V c main_arg0 _ = V c main_arg0 _
  congr 1
  funext a
  apply Fin.ext
  match a with
  | ⟨0, _⟩ => show win0_1.index t (0 : Fin 2) * 10000 + 1 * r.val = t.val * 10000 + r.val; rw [e0]; omega
  | ⟨1, _⟩ => show win0_1.index t (1 : Fin 2) * 4 + 1 * k.val = k.val; rw [e1]; omega

/-- A weight matrix is staged whole at every point. -/
theorem iblk0_2_apply (c : Dev nD) (t : Fin cfg0.N) (j : Fin 64) (k : Fin 4) :
    (iblk0 V c 2 t : Vec Ideal S64x4 .f32) (ix2 j k) = (V c main_arg2 : S64x4.Idx → EReal) (ix2 j k) := by
  obtain ⟨-, -, -, -, e0, e1, -⟩ := idx_facts0 t
  unfold iblk0
  rw [View.read_apply]
  show V c main_arg2 _ = V c main_arg2 _
  congr 1
  funext a
  apply Fin.ext
  match a with
  | ⟨0, _⟩ => show win0_2.index t (0 : Fin 2) * 64 + 1 * j.val = j.val; rw [e0]; omega
  | ⟨1, _⟩ => show win0_2.index t (1 : Fin 2) * 4 + 1 * k.val = k.val; rw [e1]; omega

theorem iblk0_3_apply (c : Dev nD) (t : Fin cfg0.N) (j : Fin 64) (k : Fin 4) :
    (iblk0 V c 3 t : Vec Ideal S64x4 .f32) (ix2 j k) = (V c main_arg4 : S64x4.Idx → EReal) (ix2 j k) := by
  obtain ⟨-, -, -, -, -, -, e0, e1, -⟩ := idx_facts0 t
  unfold iblk0
  rw [View.read_apply]
  show V c main_arg4 _ = V c main_arg4 _
  congr 1
  funext a
  apply Fin.ext
  match a with
  | ⟨0, _⟩ => show win0_3.index t (0 : Fin 2) * 64 + 1 * j.val = j.val; rw [e0]; omega
  | ⟨1, _⟩ => show win0_3.index t (1 : Fin 2) * 4 + 1 * k.val = k.val; rw [e1]; omega

/-- A one-row parameter matrix is staged whole at every point. -/
theorem iblk0_4_apply (c : Dev nD) (t : Fin cfg0.N) (a : Fin 1) (j : Fin 64) :
    (iblk0 V c 4 t : Vec Ideal S1x64 .f32) (ix2 a j) = (V c main_v25 : S1x64.Idx → EReal) (ix2 a j) := by
  obtain ⟨-, -, -, -, -, -, -, -, e0, e1, -⟩ := idx_facts0 t
  unfold iblk0
  rw [View.read_apply]
  show V c main_v25 _ = V c main_v25 _
  congr 1
  funext d
  apply Fin.ext
  match d with
  | ⟨0, _⟩ => show win0_4.index t (0 : Fin 2) * 1 + 1 * a.val = a.val; rw [e0]; omega
  | ⟨1, _⟩ => show win0_4.index t (1 : Fin 2) * 64 + 1 * j.val = j.val; rw [e1]; omega

/-- A one-row parameter matrix is staged whole at every point. -/
theorem iblk0_5_apply (c : Dev nD) (t : Fin cfg0.N) (a : Fin 1) (j : Fin 64) :
    (iblk0 V c 5 t : Vec Ideal S1x64 .f32) (ix2 a j) = (V c main_v26 : S1x64.Idx → EReal) (ix2 a j) := by
  obtain ⟨-, -, -, -, -, -, -, -, -, -, e0, e1, -⟩ := idx_facts0 t
  unfold iblk0
  rw [View.read_apply]
  show V c main_v26 _ = V c main_v26 _
  congr 1
  funext d
  apply Fin.ext
  match d with
  | ⟨0, _⟩ => show win0_5.index t (0 : Fin 2) * 1 + 1 * a.val = a.val; rw [e0]; omega
  | ⟨1, _⟩ => show win0_5.index t (1 : Fin 2) * 64 + 1 * j.val = j.val; rw [e1]; omega

/-- A one-row parameter matrix is staged whole at every point. -/
theorem iblk0_6_apply (c : Dev nD) (t : Fin cfg0.N) (a : Fin 1) (j : Fin 64) :
    (iblk0 V c 6 t : Vec Ideal S1x64 .f32) (ix2 a j) = (V c main_v27 : S1x64.Idx → EReal) (ix2 a j) := by
  obtain ⟨-, -, -, -, -, -, -, -, -, -, -, -, e0, e1, -⟩ := idx_facts0 t
  unfold iblk0
  rw [View.read_apply]
  show V c main_v27 _ = V c main_v27 _
  congr 1
  funext d
  apply Fin.ext
  match d with
  | ⟨0, _⟩ => show win0_6.index t (0 : Fin 2) * 1 + 1 * a.val = a.val; rw [e0]; omega
  | ⟨1, _⟩ => show win0_6.index t (1 : Fin 2) * 64 + 1 * j.val = j.val; rw [e1]; omega

/-- A one-row parameter matrix is staged whole at every point. -/
theorem iblk0_7_apply (c : Dev nD) (t : Fin cfg0.N) (a : Fin 1) (j : Fin 64) :
    (iblk0 V c 7 t : Vec Ideal S1x64 .f32) (ix2 a j) = (V c main_v28 : S1x64.Idx → EReal) (ix2 a j) := by
  obtain ⟨-, -, -, -, -, -, -, -, -, -, -, -, -, -, e0, e1, -⟩ := idx_facts0 t
  unfold iblk0
  rw [View.read_apply]
  show V c main_v28 _ = V c main_v28 _
  congr 1
  funext d
  apply Fin.ext
  match d with
  | ⟨0, _⟩ => show win0_7.index t (0 : Fin 2) * 1 + 1 * a.val = a.val; rw [e0]; omega
  | ⟨1, _⟩ => show win0_7.index t (1 : Fin 2) * 64 + 1 * j.val = j.val; rw [e1]; omega

/-- A one-row parameter matrix is staged whole at every point. -/
theorem iblk0_8_apply (c : Dev nD) (t : Fin cfg0.N) (a : Fin 1) (j : Fin 64) :
    (iblk0 V c 8 t : Vec Ideal S1x64 .f32) (ix2 a j) = (V c main_v29 : S1x64.Idx → EReal) (ix2 a j) := by
  obtain ⟨-, -, -, -, -, -, -, -, -, -, -, -, -, -, -, -, e0, e1, -⟩ := idx_facts0 t
  unfold iblk0
  rw [View.read_apply]
  show V c main_v29 _ = V c main_v29 _
  congr 1
  funext d
  apply Fin.ext
  match d with
  | ⟨0, _⟩ => show win0_8.index t (0 : Fin 2) * 1 + 1 * a.val = a.val; rw [e0]; omega
  | ⟨1, _⟩ => show win0_8.index t (1 : Fin 2) * 64 + 1 * j.val = j.val; rw [e1]; omega

/-- WHAT POINT t WRITES BACK: rows 10000·t … 10000·t + 9999 of the first layer of the arrays as the region finds them. -/
theorem flushed0_eq (c : Dev nD) (t : Fin cfg0.N) :
    (dat0 (F := Ideal) V c).flushed 9 t
      = ((cfg0.win 9).blk t).view.read (Elt Ideal) (Cert.Sage.layer4 (V c main_v24) (V c main_arg0) (V c main_arg2) (V c main_arg4) (V c main_v25) (V c main_v26) (V c main_v27) (V c main_v28) (V c main_v29)) := by
  show (cfg0.win 9).cut (grid0.coords t) ((dat0 (F := Ideal) V c).after 9 t) = _
  rw [after0_9]
  unfold out0_9
  rw [View.canon_unit_zero hz]
  simp only [View.ld_unit_zero (S := S10000x4) hz, View.ld_unit_zero (S := S64x4) hz, View.ld_unit_zero (S := S1x64) hz]
  funext y
  obtain ⟨r, j, rfl⟩ : ∃ (r : Fin 10000) (j : Fin 64), y = ix2 r j := ⟨y 0, y 1, eq_ix2 y⟩
  rw [View.read_apply]
  have he : ((cfg0.win 9).blk t).view.emb (ix2 r j) = ix2 (⟨t.val * 10000 + r.val, row_lt t r⟩ : Fin 1000000) j := by
    obtain ⟨-, -, -, -, -, -, -, -, -, -, -, -, -, -, -, -, -, -, e0, e1⟩ := idx_facts0 t
    funext a
    apply Fin.ext
    match a with
    | ⟨0, _⟩ => show win0_9.index t (0 : Fin 2) * 10000 + 1 * r.val = t.val * 10000 + r.val; rw [e0]; omega
    | ⟨1, _⟩ => show win0_9.index t (1 : Fin 2) * 64 + 1 * j.val = j.val; rw [e1]; omega
  rw [he, Cert.Sage.layer4_ix2]
  unfold Cert.Sage.layerElt4
  refine (pay0_apply _ _ _ _ _ _ _ _ _ r j).trans ?_
  simp only [iblk0_0_apply V c t, iblk0_1_apply V c t, iblk0_2_apply V c t, iblk0_3_apply V c t, iblk0_4_apply V c t,
    iblk0_5_apply V c t, iblk0_6_apply V c t, iblk0_7_apply V c t, iblk0_8_apply V c t]
  rfl

/-- An index of the array is in point t's block iff each coordinate is in the block's range on its axis. -/
theorem mem_blk0 (t : Fin cfg0.N) (i : S1000000x64.Idx) :
    i ∈ ((cfg0.win 9).blk t).view.set ↔ ∀ a : Fin 2, win0_9.index t a * S10000x64.size a ≤ (i a).val ∧ (i a).val < win0_9.index t a * S10000x64.size a + S10000x64.size a := by
  show i ∈ ((View.whole main_v30).slice (win0_9.rect t)).set ↔ _
  rw [View.set_slice_whole, Rect.mem_set_unit]
  exact Iff.rfl

/-- Every row of the array is in some point's block: row n is in the block of point n / 10000. -/
theorem cover0 (i : S1000000x64.Idx) :
    ∃ t : Fin cfg0.N, (cfg0.win 9).flush t = true ∧ i ∈ ((cfg0.win 9).blk t).view.set := by
  have hi0 : (i 0).val < 1000000 := (i 0).isLt
  have hi1 : (i 1).val < 64 := (i 1).isLt
  have hN : cfg0.N = 100 := N_0
  have hq : (i 0).val / 10000 < cfg0.N := by rw [hN]; omega
  refine ⟨⟨(i 0).val / 10000, hq⟩, flush0_9 _, ?_⟩
  rw [mem_blk0]
  obtain ⟨-, -, -, -, -, -, -, -, -, -, -, -, -, -, -, -, -, -, e0, e1⟩ := idx_facts0 ⟨(i 0).val / 10000, hq⟩
  have e0' : win0_9.index ⟨(i 0).val / 10000, hq⟩ (0 : Fin 2) = (i 0).val / 10000 := e0
  intro a
  match a with
  | ⟨0, _⟩ =>
    show win0_9.index ⟨(i 0).val / 10000, hq⟩ (0 : Fin 2) * 10000 ≤ (i 0).val ∧ (i 0).val < win0_9.index ⟨(i 0).val / 10000, hq⟩ (0 : Fin 2) * 10000 + 10000
    rw [e0']; omega
  | ⟨1, _⟩ =>
    show win0_9.index ⟨(i 0).val / 10000, hq⟩ (1 : Fin 2) * 64 ≤ (i 1).val ∧ (i 1).val < win0_9.index ⟨(i 0).val / 10000, hq⟩ (1 : Fin 2) * 64 + 64
    rw [e1]; omega

/-- THE ARRAY after the region: the first layer of the arrays as the region finds them. -/
theorem region0 (c : Dev nD) :
    ((dat0 (F := Ideal) V c).arrAt 9 cfg0.N : S1000000x64.Idx → EReal)
      = Cert.Sage.layer4 (V c main_v24) (V c main_arg0) (V c main_arg2) (V c main_arg4) (V c main_v25) (V c main_v26) (V c main_v27) (V c main_v28) (V c main_v29) :=
  (dat0 (F := Ideal) V c).arrAt_eq_of_cover 9 (Cert.Sage.layer4 (V c main_v24) (V c main_arg0) (V c main_arg2) (V c main_arg4) (V c main_v25) (V c main_v26) (V c main_v27) (V c main_v28) (V c main_v29))
    (fun t _ => flushed0_eq V c t) cover0

end Blocks

end Cert.KernelIdeal.RegionValue

end
-- ==== Proof.Region1.lean ====
import proofs.«149538_j9431748182756_1_alg».proof.Proof.KernelIdealFrameP
import proofs.«149538_j9431748182756_1_alg».proof.Proof.Spec
import Idealize.ShloMosaic.Lib.Pipeline.Value
import Idealize.ShloMosaic.Lib.ValueIdx
import Idealize.ShloMosaic.PureOps.Ideal.Laws

/-!
  The second dense layer, read off the kernel's second region.

  The region walks the 1000000 nodes in 100 blocks of 10000 rows. At a block it holds the block's rows of the
  aggregated features and of the node features (64 columns each), and, whole, the two weight matrices and the five one-row parameter
  matrices; it writes the block's rows of

      max ( ((agg·Wlᵀ + h·Wrᵀ + b − rm) · (rv + ε)^(-1/2)) · g + be , 0 ).

  Three steps: the body's arithmetic at one entry of a block; what one block's write-back is, as the block's rows of
  the whole-array layer function; the blocks cover every row, so the array ends as that function.
-/

noncomputable section

open Idealize.ShloMosaic Idealize.ShloMosaic.TcCoe Idealize.ShloMosaic.ValueIdx Idealize.SL.Sem
open Idealize.ShloMosaic.Pipeline (Dat)

namespace Cert.KernelIdeal.RegionValue

open Cert.KernelIdeal Cert.KernelIdeal.Gen Cert.KernelIdeal.GenP

/-! ## The body's arithmetic at one entry of a block -/
/-- A one-row matrix broadcast down the rows of a block reads its own entry of the same column. -/
theorem bcastRow1_apply (v : FVec Ideal S1x64 .f32) (r : Fin 10000) (j : Fin 64) :
    broadcastTo S10000x64 v broadcasts_S1x64_S10000x64 (ix2 r j) = v (ix2 (0 : Fin 1) j) :=
  broadcastTo_apply v broadcasts_S1x64_S10000x64 (ix2 r j) (ix2 (0 : Fin 1) j) (fun a => match a with
    | ⟨0, _⟩ => by show 0 = if (1 : Nat) = 1 then 0 else r.val; rw [if_pos rfl]
    | ⟨1, _⟩ => by show j.val = if (64 : Nat) = 1 then 0 else j.val; rw [if_neg (by decide)])

/-- The transposed weight matrix at (k, j) is the weight matrix at (j, k). -/
theorem transposeW1_apply (W : FVec Ideal S64x64 .bf16) (k : Fin 64) (j : Fin 64) :
    transpose S64x64 [1, 0] W transposes_S64x64_p1_0_S64x64 (ix2 k j) = W (ix2 j k) :=
  transpose_apply [1, 0] W transposes_S64x64_p1_0_S64x64 (ix2 k j) (ix2 j k) (fun b => match b with
    | ⟨0, _⟩ => rfl
    | ⟨1, _⟩ => rfl)

local notation "D64" => dot_S10000x64_S64x64_S10000x64_1_0_0_1_n_n

theorem lhsD64_0 (i : S10000x64.Idx) (q : (D64).contr.Idx) : ((D64).lhsIdx i q 0).val = (i 0).val := by
  unfold DotDims.lhsIdx
  rw [dif_neg (show ¬(0 : Fin S10000x64.rank) ∈ (D64).lhsBatch by decide), dif_pos (show (0 : Fin S10000x64.rank) ∈ (D64).lhsNonContracting by decide)]
  rfl
theorem lhsD64_1 (i : S10000x64.Idx) (q : (D64).contr.Idx) : ((D64).lhsIdx i q 1).val = (q ⟨0, by decide⟩).val :=
  (D64).lhsIdx_val_of_single rfl i q
theorem rhsD64_0 (i : S10000x64.Idx) (q : (D64).contr.Idx) : ((D64).rhsIdx i q 0).val = (q ⟨0, by decide⟩).val :=
  (D64).rhsIdx_val_of_single rfl i q
theorem rhsD64_1 (i : S10000x64.Idx) (q : (D64).contr.Idx) : ((D64).rhsIdx i q 1).val = (i 1).val := by
  unfold DotDims.rhsIdx
  rw [dif_neg (show ¬(1 : Fin S64x64.rank) ∈ (D64).rhsBatch by decide), dif_pos (show (1 : Fin S64x64.rank) ∈ (D64).rhsNonContracting by decide)]
  rfl

/-- A block of rows times the transpose of a weight matrix, accumulated from zero: entry (r, j) is the
    inner product of row r of the block with row j of the weights. -/
theorem matmulT1_apply (x : FVec Ideal S10000x64 .bf16) (W : FVec Ideal S64x64 .bf16) (r : Fin 10000) (j : Fin 64) :
    matmul (D64) none x (transpose S64x64 [1, 0] W transposes_S64x64_p1_0_S64x64) (constant (F := Ideal) S10000x64 .f32 0x00000000#32) (ix2 r j)
      = ∑ k : Fin 64, x (ix2 r k) * W (ix2 j k) := by
  refine (Ideal.matmul_constant_zero_apply (D64) none x _ (ix2 r j)).trans ?_
  rw [← Equiv.sum_comp (ValueIdx.contrEquiv1 (D64) 64 rfl rfl).symm]
  refine Finset.sum_congr rfl fun k _ => ?_
  have hk := ValueIdx.contrEquiv1_symm_val (D64) 64 rfl rfl k
  have el : (D64).lhsIdx (ix2 r j) ((ValueIdx.contrEquiv1 (D64) 64 rfl rfl).symm k) = ix2 r k := funext fun a => Fin.ext (by
    match a with
    | ⟨0, _⟩ => exact lhsD64_0 _ _
    | ⟨1, _⟩ => exact (lhsD64_1 _ _).trans hk)
  have er : (D64).rhsIdx (ix2 r j) ((ValueIdx.contrEquiv1 (D64) 64 rfl rfl).symm k) = ix2 k j := funext fun a => Fin.ext (by
    match a with
    | ⟨0, _⟩ => exact (rhsD64_0 _ _).trans hk
    | ⟨1, _⟩ => exact rhsD64_1 _ _)
  rw [el, er, transposeW1_apply]

/-- The body's arithmetic at row r, column j of a block. -/
theorem pay1_apply (agg h : Vec Ideal S10000x64 .f32) (Wl Wr : Vec Ideal S64x64 .f32) (b rv rm g be : Vec Ideal S1x64 .f32)
    (r : Fin 10000) (j : Fin 64) :
    k1_pay1 (k1_pay2 agg h Wl Wr b rv rm g be) (ix2 r j)
      = Cert.Sage.bnRelu ((∑ k : Fin 64, agg (ix2 r k) * Wl (ix2 j k)) + ∑ k : Fin 64, h (ix2 r k) * Wr (ix2 j k))
          (b (ix2 (0 : Fin 1) j)) (g (ix2 (0 : Fin 1) j)) (be (ix2 (0 : Fin 1) j)) (rm (ix2 (0 : Fin 1) j)) (rv (ix2 (0 : Fin 1) j)) := by
  unfold Cert.Sage.bnRelu Cert.Sage.eps k1_pay1 k1_pay2
  simp only [shapeCast_self]
  simp only [maximumf_apply, addf_apply, mulf_apply, subf_apply, broadcast_apply, bcastRow1_apply, matmulT1_apply, truncf_apply]
  rw [show (FloatOps.ofBits (F := Ideal) .f32 0x00000000#32) = (0 : EReal) from Ideal.ofBits_zero_f32]
  rw [matmulT1_apply (truncf .bf16 agg bitsLt_bf16_f32) (truncf .bf16 Wl bitsLt_bf16_f32) r j,
    matmulT1_apply (truncf .bf16 h bitsLt_bf16_f32) (truncf .bf16 Wr bitsLt_bf16_f32) r j]
  rfl

/-! ## One block's write-back -/

section Blocks

variable (V : (c : Dev nD) → (b : Ref sig .tc) → Buf (Elt Ideal) ((c : Thread nD τ).loc b))

theorem hz1 : (![0, 0] : Fin 2 → Nat) = fun _ => 0 := funext fun a => by fin_cases a <;> rfl

/-- The block index maps over the grid: the two feature arrays and the output move down one row block per
    point; the weights and the one-row parameters stay at block (0, 0). -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = t.val ∧ win1_9.index t (1 : Fin 2) = 0 :=
  (by decide +kernel : ∀ t : Fin grid1.N, _)

theorem lt_N1 (t : Fin cfg1.N) : t.val < 100 := lt_of_lt_of_eq t.isLt N_1

/-- Row r of point t's block is row 10000·t + r of the array. -/
theorem row_lt1 (t : Fin cfg1.N) (r : Fin 10000) : t.val * 10000 + r.val < 1000000 := by
  have := lt_N1 t; have := r.isLt; omega

/-- The aggregated features' block at point t: rows 10000·t … 10000·t + 9999 of the array. -/
theorem iblk1_0_apply (c : Dev nD) (t : Fin cfg1.N) (r : Fin 10000) (k : Fin 64) :
    (iblk1 V c 0 t : Vec Ideal S10000x64 .f32) (ix2 r k)
      = (V c main_v42 : S1000000x64.Idx → EReal) (ix2 ⟨t.val * 10000 + r.val, row_lt1 t r⟩ k) := by
  obtain ⟨e0, e1, -⟩ := idx_facts1 t
  unfold iblk1
  rw [View.read_apply]
  show V c main_v42 _ = V c main_v42 _
  congr 1
  funext a
  apply Fin.ext
  match a with
  | ⟨0, _⟩ => show win1_0.index t (0 : Fin 2) * 10000 + 1 * r.val = t.val * 10000 + r.val; rw [e0]; omega
  | ⟨1, _⟩ => show win1_0.index t (1 : Fin 2) * 64 + 1 * k.val = k.val; rw [e1]; omega

/-- The node features' block at point t, likewise. -/
theorem iblk1_1_apply (c : Dev nD) (t : Fin cfg1.N) (r : Fin 10000) (k : Fin 64) :
    (iblk1 V c 1 t : Vec Ideal S10000x64 .f32) (ix2 r k)
      = (V c main_v30 : S1000000x64.Idx → EReal) (ix2 ⟨t.val * 10000 + r.val, row_lt1 t r⟩ k) := by
  obtain ⟨-, -, e0, e1, -⟩ := idx_facts1 t
  unfold iblk1
  rw [View.read_apply]
  show V c main_v30 _ = V c main_v30 _
  congr 1
  funext a
  apply Fin.ext
  match a with
  | ⟨0, _⟩ => show win1_1.index t (0 : Fin 2) * 10000 + 1 * r.val = t.val * 10000 + r.val; rw [e0]; omega
  | ⟨1, _⟩ => show win1_1.index t (1 : Fin 2) * 64 + 1 * k.val = k.val; rw [e1]; omega

/-- A weight matrix is staged whole at every point. -/
theorem iblk1_2_apply (c : Dev nD) (t : Fin cfg1.N) (j : Fin 64) (k : Fin 64) :
    (iblk1 V c 2 t : Vec Ideal S64x64 .f32) (ix2 j k) = (V c main_arg9 : S64x64.Idx → EReal) (ix2 j k) := by
  obtain ⟨-, -, -, -, e0, e1, -⟩ := idx_facts1 t
  unfold iblk1
  rw [View.read_apply]
  show V c main_arg9 _ = V c main_arg9 _
  congr 1
  funext a
  apply Fin.ext
  match a with
  | ⟨0, _⟩ => show win1_2.index t (0 : Fin 2) * 64 + 1 * j.val = j.val; rw [e0]; omega
  | ⟨1, _⟩ => show win1_2.index t (1 : Fin 2) * 64 + 1 * k.val = k.val; rw [e1]; omega

theorem iblk1_3_apply (c : Dev nD) (t : Fin cfg1.N) (j : Fin 64) (k : Fin 64) :
    (iblk1 V c 3 t : Vec Ideal S64x64 .f32) (ix2 j k) = (V c main_arg11 : S64x64.Idx → EReal) (ix2 j k) := by
  obtain ⟨-, -, -, -, -, -, e0, e1, -⟩ := idx_facts1 t
  unfold iblk1
  rw [View.read_apply]
  show V c main_arg11 _ = V c main_arg11 _
  congr 1
  funext a
  apply Fin.ext
  match a with
  | ⟨0, _⟩ => show win1_3.index t (0 : Fin 2) * 64 + 1 * j.val = j.val; rw [e0]; omega
  | ⟨1, _⟩ => show win1_3.index t (1 : Fin 2) * 64 + 1 * k.val = k.val; rw [e1]; omega

/-- A one-row parameter matrix is staged whole at every point. -/
theorem iblk1_4_apply (c : Dev nD) (t : Fin cfg1.N) (a : Fin 1) (j : Fin 64) :
    (iblk1 V c 4 t : Vec Ideal S1x64 .f32) (ix2 a j) = (V c main_v43 : S1x64.Idx → EReal) (ix2 a j) := by
  obtain ⟨-, -, -, -, -, -, -, -, e0, e1, -⟩ := idx_facts1 t
  unfold iblk1
  rw [View.read_apply]
  show V c main_v43 _ = V c main_v43 _
  congr 1
  funext d
  apply Fin.ext
  match d with
  | ⟨0, _⟩ => show win1_4.index t (0 : Fin 2) * 1 + 1 * a.val = a.val; rw [e0]; omega
  | ⟨1, _⟩ => show win1_4.index t (1 : Fin 2) * 64 + 1 * j.val = j.val; rw [e1]; omega

/-- A one-row parameter matrix is staged whole at every point. -/
theorem iblk1_5_apply (c : Dev nD) (t : Fin cfg1.N) (a : Fin 1) (j : Fin 64) :
    (iblk1 V c 5 t : Vec Ideal S1x64 .f32) (ix2 a j) = (V c main_v44 : S1x64.Idx → EReal) (ix2 a j) := by
  obtain ⟨-, -, -, -, -, -, -, -, -, -, e0, e1, -⟩ := idx_facts1 t
  unfold iblk1
  rw [View.read_apply]
  show V c main_v44 _ = V c main_v44 _
  congr 1
  funext d
  apply Fin.ext
  match d with
  | ⟨0, _⟩ => show win1_5.index t (0 : Fin 2) * 1 + 1 * a.val = a.val; rw [e0]; omega
  | ⟨1, _⟩ => show win1_5.index t (1 : Fin 2) * 64 + 1 * j.val = j.val; rw [e1]; omega

/-- A one-row parameter matrix is staged whole at every point. -/
theorem iblk1_6_apply (c : Dev nD) (t : Fin cfg1.N) (a : Fin 1) (j : Fin 64) :
    (iblk1 V c 6 t : Vec Ideal S1x64 .f32) (ix2 a j) = (V c main_v45 : S1x64.Idx → EReal) (ix2 a j) := by
  obtain ⟨-, -, -, -, -, -, -, -, -, -, -, -, e0, e1, -⟩ := idx_facts1 t
  unfold iblk1
  rw [View.read_apply]
  show V c main_v45 _ = V c main_v45 _
  congr 1
  funext d
  apply Fin.ext
  match d with
  | ⟨0, _⟩ => show win1_6.index t (0 : Fin 2) * 1 + 1 * a.val = a.val; rw [e0]; omega
  | ⟨1, _⟩ => show win1_6.index t (1 : Fin 2) * 64 + 1 * j.val = j.val; rw [e1]; omega

/-- A one-row parameter matrix is staged whole at every point. -/
theorem iblk1_7_apply (c : Dev nD) (t : Fin cfg1.N) (a : Fin 1) (j : Fin 64) :
    (iblk1 V c 7 t : Vec Ideal S1x64 .f32) (ix2 a j) = (V c main_v46 : S1x64.Idx → EReal) (ix2 a j) := by
  obtain ⟨-, -, -, -, -, -, -, -, -, -, -, -, -, -, e0, e1, -⟩ := idx_facts1 t
  unfold iblk1
  rw [View.read_apply]
  show V c main_v46 _ = V c main_v46 _
  congr 1
  funext d
  apply Fin.ext
  match d with
  | ⟨0, _⟩ => show win1_7.index t (0 : Fin 2) * 1 + 1 * a.val = a.val; rw [e0]; omega
  | ⟨1, _⟩ => show win1_7.index t (1 : Fin 2) * 64 + 1 * j.val = j.val; rw [e1]; omega

/-- A one-row parameter matrix is staged whole at every point. -/
theorem iblk1_8_apply (c : Dev nD) (t : Fin cfg1.N) (a : Fin 1) (j : Fin 64) :
    (iblk1 V c 8 t : Vec Ideal S1x64 .f32) (ix2 a j) = (V c main_v47 : S1x64.Idx → EReal) (ix2 a j) := by
  obtain ⟨-, -, -, -, -, -, -, -, -, -, -, -, -, -, -, -, e0, e1, -⟩ := idx_facts1 t
  unfold iblk1
  rw [View.read_apply]
  show V c main_v47 _ = V c main_v47 _
  congr 1
  funext d
  apply Fin.ext
  match d with
  | ⟨0, _⟩ => show win1_8.index t (0 : Fin 2) * 1 + 1 * a.val = a.val; rw [e0]; omega
  | ⟨1, _⟩ => show win1_8.index t (1 : Fin 2) * 64 + 1 * j.val = j.val; rw [e1]; omega

/-- WHAT POINT t WRITES BACK: rows 10000·t … 10000·t + 9999 of the second layer of the arrays as the region finds them. -/
theorem flushed1_eq (c : Dev nD) (t : Fin cfg1.N) :
    (dat1 (F := Ideal) V c).flushed 9 t
      = ((cfg1.win 9).blk t).view.read (Elt Ideal) (Cert.Sage.layer64 (V c main_v42) (V c main_v30) (V c main_arg9) (V c main_arg11) (V c main_v43) (V c main_v44) (V c main_v45) (V c main_v46) (V c main_v47)) := by
  show (cfg1.win 9).cut (grid1.coords t) ((dat1 (F := Ideal) V c).after 9 t) = _
  rw [after1_9]
  unfold out1_9
  rw [View.canon_unit_zero hz1]
  simp only [View.ld_unit_zero (S := S10000x64) hz1, View.ld_unit_zero (S := S64x64) hz1, View.ld_unit_zero (S := S1x64) hz1]
  funext y
  obtain ⟨r, j, rfl⟩ : ∃ (r : Fin 10000) (j : Fin 64), y = ix2 r j := ⟨y 0, y 1, eq_ix2 y⟩
  rw [View.read_apply]
  have he : ((cfg1.win 9).blk t).view.emb (ix2 r j) = ix2 (⟨t.val * 10000 + r.val, row_lt1 t r⟩ : Fin 1000000) j := by
    obtain ⟨-, -, -, -, -, -, -, -, -, -, -, -, -, -, -, -, -, -, e0, e1⟩ := idx_facts1 t
    funext a
    apply Fin.ext
    match a with
    | ⟨0, _⟩ => show win1_9.index t (0 : Fin 2) * 10000 + 1 * r.val = t.val * 10000 + r.val; rw [e0]; omega
    | ⟨1, _⟩ => show win1_9.index t (1 : Fin 2) * 64 + 1 * j.val = j.val; rw [e1]; omega
  rw [he, Cert.Sage.layer64_ix2]
  unfold Cert.Sage.layerElt64
  refine (pay1_apply _ _ _ _ _ _ _ _ _ r j).trans ?_
  simp only [iblk1_0_apply V c t, iblk1_1_apply V c t, iblk1_2_apply V c t, iblk1_3_apply V c t, iblk1_4_apply V c t,
    iblk1_5_apply V c t, iblk1_6_apply V c t, iblk1_7_apply V c t, iblk1_8_apply V c t]
  rfl

/-- An index of the array is in point t's block iff each coordinate is in the block's range on its axis. -/
theorem mem_blk1 (t : Fin cfg1.N) (i : S1000000x64.Idx) :
    i ∈ ((cfg1.win 9).blk t).view.set ↔ ∀ a : Fin 2, win1_9.index t a * S10000x64.size a ≤ (i a).val ∧ (i a).val < win1_9.index t a * S10000x64.size a + S10000x64.size a := by
  show i ∈ ((View.whole main_v48).slice (win1_9.rect t)).set ↔ _
  rw [View.set_slice_whole, Rect.mem_set_unit]
  exact Iff.rfl

/-- Every row of the array is in some point's block: row n is in the block of point n / 10000. -/
theorem cover1 (i : S1000000x64.Idx) :
    ∃ t : Fin cfg1.N, (cfg1.win 9).flush t = true ∧ i ∈ ((cfg1.win 9).blk t).view.set := by
  have hi0 : (i 0).val < 1000000 := (i 0).isLt
  have hi1 : (i 1).val < 64 := (i 1).isLt
  have hN : cfg1.N = 100 := N_1
  have hq : (i 0).val / 10000 < cfg1.N := by rw [hN]; omega
  refine ⟨⟨(i 0).val / 10000, hq⟩, flush1_9 _, ?_⟩
  rw [mem_blk1]
  obtain ⟨-, -, -, -, -, -, -, -, -, -, -, -, -, -, -, -, -, -, e0, e1⟩ := idx_facts1 ⟨(i 0).val / 10000, hq⟩
  have e0' : win1_9.index ⟨(i 0).val / 10000, hq⟩ (0 : Fin 2) = (i 0).val / 10000 := e0
  intro a
  match a with
  | ⟨0, _⟩ =>
    show win1_9.index ⟨(i 0).val / 10000, hq⟩ (0 : Fin 2) * 10000 ≤ (i 0).val ∧ (i 0).val < win1_9.index ⟨(i 0).val / 10000, hq⟩ (0 : Fin 2) * 10000 + 10000
    rw [e0']; omega
  | ⟨1, _⟩ =>
    show win1_9.index ⟨(i 0).val / 10000, hq⟩ (1 : Fin 2) * 64 ≤ (i 1).val ∧ (i 1).val < win1_9.index ⟨(i 0).val / 10000, hq⟩ (1 : Fin 2) * 64 + 64
    rw [e1]; omega

/-- THE ARRAY after the region: the second layer of the arrays as the region finds them. -/
theorem region1 (c : Dev nD) :
    ((dat1 (F := Ideal) V c).arrAt 9 cfg1.N : S1000000x64.Idx → EReal)
      = Cert.Sage.layer64 (V c main_v42) (V c main_v30) (V c main_arg9) (V c main_arg11) (V c main_v43) (V c main_v44) (V c main_v45) (V c main_v46) (V c main_v47) :=
  (dat1 (F := Ideal) V c).arrAt_eq_of_cover 9 (Cert.Sage.layer64 (V c main_v42) (V c main_v30) (V c main_arg9) (V c main_arg11) (V c main_v43) (V c main_v44) (V c main_v45) (V c main_v46) (V c main_v47))
    (fun t _ => flushed1_eq V c t) cover1

end Blocks

end Cert.KernelIdeal.RegionValue

end
-- ==== Proof.Region2.lean ====
/-
  The value of the third region: the final projection.

  Every grid point `t` (of 100) stages rows `10000·t … 10000·t + 9999` of the feature array `h` (64 columns), the
  whole weight row `Wp` (one row of 64) and the whole bias `bp` (one by one), and writes back rows
  `10000·t … 10000·t + 9999` of the one-column result. For a row `r` of the block the body computes

      logistic ( ∑ₖ h[r,k] · Wpᵀ[k,0]  +  bp[0,0] )

  — a product of the [10000,64] block with the transposed [64,1] weight into a zero accumulator, the bias broadcast
  down the column, the logistic function. Over the extended reals the change of float format is the identity, so this
  is the specification's `projElt` of the block's row; the block's row `r` at point `t` is the array's row
  `10000·t + r`, and the 100 blocks tile the 1000000 rows, so the array ends holding `Cert.Sage.proj`.
-/
import proofs.«149538_j9431748182756_1_alg».proof.Proof.KernelIdealFrameP
import proofs.«149538_j9431748182756_1_alg».proof.Proof.Spec
import Idealize.ShloMosaic.Lib.Pipeline.Value
import Idealize.ShloMosaic.Lib.ValueIdx
import Idealize.ShloMosaic.PureOps.Ideal.Laws

noncomputable section

namespace Cert.KernelIdeal.RegionValue

open Cert.KernelIdeal Cert.KernelIdeal.Gen Cert.KernelIdeal.GenP Idealize.ShloMosaic Idealize.ShloMosaic.TcCoe Idealize.SL.Sem
open Idealize.ShloMosaic.ValueIdx
open Idealize.ShloMosaic.Pipeline (Dat)

/-! ## The body's arithmetic at a row of the block -/

/-- The block's result at row `r`: the row's 64 features against the weight row, plus the bias, through the logistic
    function. -/
def blockProj2 (h : FVec Ideal S10000x64 .f32) (Wp : FVec Ideal S1x64 .f32) (bp : FVec Ideal S1x1 .f32) (r : Fin 10000) : EReal :=
  Ideal.logistic ((∑ k : Fin 64, h (ix2 r k) * Wp (ix2 (0 : Fin 1) k)) + bp (ix2 (0 : Fin 1) (0 : Fin 1)))

/-- The left operand's index of the product at output `(r, a)` and contraction position `q`: row `r` … -/
theorem lhs2_0 (i : S10000x1.Idx) (q : dot_S10000x64_S64x1_S10000x1_1_0_0_1_n_n.contr.Idx) :
    (dot_S10000x64_S64x1_S10000x1_1_0_0_1_n_n.lhsIdx i q 0).val = (i 0).val := by
  unfold DotDims.lhsIdx
  rw [dif_neg (show ¬(0 : Fin S10000x64.rank) ∈ dot_S10000x64_S64x1_S10000x1_1_0_0_1_n_n.lhsBatch by decide), dif_pos (show (0 : Fin S10000x64.rank) ∈ dot_S10000x64_S64x1_S10000x1_1_0_0_1_n_n.lhsNonContracting by decide)]
  rfl
/-- … column `q`. -/
theorem lhs2_1 (i : S10000x1.Idx) (q : dot_S10000x64_S64x1_S10000x1_1_0_0_1_n_n.contr.Idx) :
    (dot_S10000x64_S64x1_S10000x1_1_0_0_1_n_n.lhsIdx i q 1).val = (q ⟨0, by decide⟩).val :=
  dot_S10000x64_S64x1_S10000x1_1_0_0_1_n_n.lhsIdx_val_of_single rfl i q
/-- The right operand's index: row `q` … -/
theorem rhs2_0 (i : S10000x1.Idx) (q : dot_S10000x64_S64x1_S10000x1_1_0_0_1_n_n.contr.Idx) :
    (dot_S10000x64_S64x1_S10000x1_1_0_0_1_n_n.rhsIdx i q 0).val = (q ⟨0, by decide⟩).val :=
  dot_S10000x64_S64x1_S10000x1_1_0_0_1_n_n.rhsIdx_val_of_single rfl i q
/-- … column `a`. -/
theorem rhs2_1 (i : S10000x1.Idx) (q : dot_S10000x64_S64x1_S10000x1_1_0_0_1_n_n.contr.Idx) :
    (dot_S10000x64_S64x1_S10000x1_1_0_0_1_n_n.rhsIdx i q 1).val = (i 1).val := by
  unfold DotDims.rhsIdx
  rw [dif_neg (show ¬(1 : Fin S64x1.rank) ∈ dot_S10000x64_S64x1_S10000x1_1_0_0_1_n_n.rhsBatch by decide), dif_pos (show (1 : Fin S64x1.rank) ∈ dot_S10000x64_S64x1_S10000x1_1_0_0_1_n_n.rhsNonContracting by decide)]
  rfl

/-- The product of a [10000,64] block with a [64,1] column into the zero accumulator, at row `r`: the sum over the 64
    columns. -/
theorem matmul2_apply (x : FVec Ideal S10000x64 .bf16) (y : FVec Ideal S64x1 .bf16) (r : Fin 10000) (a : Fin 1) :
    FloatOps.matmul dot_S10000x64_S64x1_S10000x1_1_0_0_1_n_n none x y (constant (F := Ideal) S10000x1 .f32 0x00000000#32) (ix2 r a)
      = ∑ k : Fin 64, x (ix2 r k) * y (ix2 k a) := by
  rw [Ideal.matmul_constant_zero_apply, ← Equiv.sum_comp (ValueIdx.contrEquiv1 dot_S10000x64_S64x1_S10000x1_1_0_0_1_n_n 64 rfl rfl).symm]
  refine Finset.sum_congr rfl fun k _ => ?_
  have hk := ValueIdx.contrEquiv1_symm_val dot_S10000x64_S64x1_S10000x1_1_0_0_1_n_n 64 rfl rfl k
  have el : dot_S10000x64_S64x1_S10000x1_1_0_0_1_n_n.lhsIdx (ix2 r a) ((ValueIdx.contrEquiv1 dot_S10000x64_S64x1_S10000x1_1_0_0_1_n_n 64 rfl rfl).symm k) = ix2 r k := funext fun b => Fin.ext (by
    match b with
    | ⟨0, _⟩ => exact lhs2_0 _ _
    | ⟨1, _⟩ => exact (lhs2_1 _ _).trans hk)
  have er : dot_S10000x64_S64x1_S10000x1_1_0_0_1_n_n.rhsIdx (ix2 r a) ((ValueIdx.contrEquiv1 dot_S10000x64_S64x1_S10000x1_1_0_0_1_n_n 64 rfl rfl).symm k) = ix2 k a := funext fun b => Fin.ext (by
    match b with
    | ⟨0, _⟩ => exact (rhs2_0 _ _).trans hk
    | ⟨1, _⟩ => exact rhs2_1 _ _)
  rw [el, er]

/-- The transposed weight row read at `(k, a)` is the row at `(a, k)`. -/
theorem transpose2_apply (w : FVec Ideal S1x64 .bf16) (k : Fin 64) (a : Fin 1) :
    transpose S64x1 [1, 0] w transposes_S1x64_p1_0_S64x1 (ix2 k a) = w (ix2 a k) :=
  transpose_apply [1, 0] w transposes_S1x64_p1_0_S64x1 (ix2 k a) (ix2 a k) (fun b => match b with
    | ⟨0, _⟩ => rfl
    | ⟨1, _⟩ => rfl)

/-- The bias broadcast down the column reads its one entry at every row. -/
theorem broadcast2_apply (b : FVec Ideal S1x1 .f32) (r : Fin 10000) (a : Fin 1) :
    broadcastTo S10000x1 b broadcasts_S1x1_S10000x1 (ix2 r a) = b (ix2 (0 : Fin 1) (0 : Fin 1)) :=
  broadcastTo_apply b broadcasts_S1x1_S10000x1 (ix2 r a) (ix2 (0 : Fin 1) (0 : Fin 1)) (fun d => match d with
    | ⟨0, _⟩ => by show 0 = if (1 : Nat) = 1 then 0 else _; rw [if_pos rfl]
    | ⟨1, _⟩ => by show 0 = if (1 : Nat) = 1 then 0 else _; rw [if_pos rfl])

/-- THE BODY'S PAYLOAD at row `r` of the block is `blockProj2` of the three loaded blocks. -/
theorem pay2_apply (v0 : FVec Ideal S10000x64 .f32) (v3 : FVec Ideal S1x64 .f32) (v7 : FVec Ideal S1x1 .f32) (r : Fin 10000) (a : Fin 1) :
    k2_pay1 (F := Ideal) v0 v3 v7 (ix2 r a) = blockProj2 v0 v3 v7 r := by
  obtain rfl : a = 0 := Subsingleton.elim _ _
  unfold k2_pay1 blockProj2
  show Ideal.logistic (FloatOps.matmul dot_S10000x64_S64x1_S10000x1_1_0_0_1_n_n none
        (truncf .bf16 (shapeCast S10000x64 v0 shapeCasts_S10000x64_S10000x64) bitsLt_bf16_f32)
        (transpose S64x1 [1, 0] (truncf .bf16 v3 bitsLt_bf16_f32) transposes_S1x64_p1_0_S64x1)
        (constant (F := Ideal) S10000x1 .f32 0x00000000#32) (ix2 r 0)
      + broadcastTo S10000x1 (shapeCast S1x1 v7 shapeCasts_S1x1_S1x1) broadcasts_S1x1_S10000x1 (ix2 r 0)) = _
  rw [matmul2_apply, broadcast2_apply, shapeCast_self, shapeCast_self]
  refine congrArg Ideal.logistic (congrArg (· + v7 (ix2 (0 : Fin 1) (0 : Fin 1))) (Finset.sum_congr rfl fun k _ => ?_))
  rw [transpose2_apply]
  rfl

/-! ## From the blocks to the array -/

theorem hz2 : (![0, 0] : Fin 2 → Nat) = fun _ => 0 := funext fun a => by fin_cases a <;> rfl

/-- The printed index maps, decided over the grid: the feature window and the result window sit at row block `t`,
    column block `0`; the weight row and the bias are whole. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

section
variable (V : (c : Dev nD) → (b : Ref sig .tc) → Buf (Elt Ideal) ((c : Thread nD τ).loc b))

/-- The feature window's block at point `t`, row `r`, column `k`, is the array at row `10000·t + r`, column `k`. -/
theorem blk0_apply2 (c : Dev nD) (t : Fin cfg2.N) (r : Fin 10000) (k : Fin 64) (i : S1000000x64.Idx)
    (h0 : (i 0).val = t.val * 10000 + r.val) (h1 : (i 1).val = k.val) :
    (iblk2 (F := Ideal) V c 0 t : FVec Ideal S10000x64 .f32) (ix2 r k) = (V c main_v48 : S1000000x64.Idx → EReal) i := by
  obtain ⟨e0, e1, -⟩ := idx_facts2 t
  unfold iblk2
  rw [View.read_apply]
  show V c main_v48 _ = V c main_v48 _
  congr 1
  funext a
  apply Fin.ext
  match a with
  | ⟨0, _⟩ => show win2_0.index t (0 : Fin 2) * 10000 + 1 * r.val = (i 0).val; rw [e0, h0]; omega
  | ⟨1, _⟩ => show win2_0.index t (1 : Fin 2) * 64 + 1 * k.val = (i 1).val; rw [e1, h1]; omega

/-- The weight window's block is the whole weight row. -/
theorem blk1_apply2 (c : Dev nD) (t : Fin cfg2.N) (k : Fin 64) :
    (iblk2 (F := Ideal) V c 1 t : FVec Ideal S1x64 .f32) (ix2 (0 : Fin 1) k) = (V c main_arg16 : S1x64.Idx → EReal) (ix2 (0 : Fin 1) k) := by
  obtain ⟨-, -, e0, e1, -⟩ := idx_facts2 t
  unfold iblk2
  rw [View.read_apply]
  show V c main_arg16 _ = V c main_arg16 _
  congr 1
  funext a
  apply Fin.ext
  match a with
  | ⟨0, _⟩ => show win2_1.index t (0 : Fin 2) * 1 + 1 * 0 = 0; rw [e0]
  | ⟨1, _⟩ => show win2_1.index t (1 : Fin 2) * 64 + 1 * k.val = k.val; rw [e1]; omega

/-- The bias window's block is the whole bias. -/
theorem blk2_apply2 (c : Dev nD) (t : Fin cfg2.N) :
    (iblk2 (F := Ideal) V c 2 t : FVec Ideal S1x1 .f32) (ix2 (0 : Fin 1) (0 : Fin 1)) = (V c main_v49 : S1x1.Idx → EReal) (ix2 (0 : Fin 1) (0 : Fin 1)) := by
  obtain ⟨-, -, -, -, e0, e1, -⟩ := idx_facts2 t
  unfold iblk2
  rw [View.read_apply]
  show V c main_v49 _ = V c main_v49 _
  congr 1
  funext a
  apply Fin.ext
  match a with
  | ⟨0, _⟩ => show win2_2.index t (0 : Fin 2) * 1 + 1 * 0 = 0; rw [e0]
  | ⟨1, _⟩ => show win2_2.index t (1 : Fin 2) * 1 + 1 * 0 = 0; rw [e1]

/-- WHAT POINT `t` WRITES BACK is block `t` of the projection of the region's arrays. -/
theorem flushed_eq2 (c : Dev nD) (t : Fin cfg2.N) :
    (dat2 (F := Ideal) V c).flushed 3 t
      = ((cfg2.win 3).blk t).view.read (Elt Ideal) (Cert.Sage.proj (V c main_v48) (V c main_arg16) (V c main_v49)) := by
  show (cfg2.win 3).cut (grid2.coords t) ((dat2 V c).after 3 t) = _
  rw [after2_3]
  unfold out2_3
  rw [View.canon_unit_zero hz2]
  simp only [View.ld_unit_zero (S := S10000x64) hz2, View.ld_unit_zero (S := S1x64) hz2, View.ld_unit_zero (S := S1x1) hz2]
  obtain ⟨-, -, -, -, -, -, e0, e1⟩ := idx_facts2 t
  funext j
  obtain ⟨r, a, rfl⟩ : ∃ (r : Fin 10000) (a : Fin 1), j = ix2 r a := ⟨j 0, j 1, eq_ix2 j⟩
  refine (pay2_apply (iblk2 V c 0 t) (iblk2 V c 1 t) (iblk2 V c 2 t) r a).trans ?_
  have hr : t.val * 10000 + r.val < 1000000 := by
    have := t.isLt; have hN : cfg2.N = 100 := N_2; have := r.isLt; omega
  show _ = Cert.Sage.proj (V c main_v48) (V c main_arg16) (V c main_v49) (((cfg2.win 3).blk t).view.emb (ix2 r a))
  have hemb : ((cfg2.win 3).blk t).view.emb (ix2 r a) = (ix2 ⟨t.val * 10000 + r.val, hr⟩ a : S1000000x1.Idx) := by
    funext b
    apply Fin.ext
    match b with
    | ⟨0, _⟩ => show win2_3.index t (0 : Fin 2) * 10000 + 1 * r.val = t.val * 10000 + r.val; rw [e0]; omega
    | ⟨1, _⟩ => show win2_3.index t (1 : Fin 2) * 1 + 1 * a.val = a.val; rw [e1]; omega
  rw [hemb, Cert.Sage.proj_ix2]
  unfold blockProj2 Cert.Sage.projElt
  refine congrArg Ideal.logistic (congrArg₂ (· + ·) (Finset.sum_congr rfl fun k _ => congrArg₂ (· * ·) ?_ ?_) ?_)
  · exact blk0_apply2 V c t r k _ rfl rfl
  · exact blk1_apply2 V c t k
  · exact blk2_apply2 V c t

/-- An index of the result array is in point `t`'s block iff each coordinate is in the block's range on its axis. -/
theorem mem_blk2 (t : Fin cfg2.N) (i : S1000000x1.Idx) :
    i ∈ ((cfg2.win 3).blk t).view.set ↔ ∀ a : Fin 2, win2_3.index t a * S10000x1.size a ≤ (i a).val ∧ (i a).val < win2_3.index t a * S10000x1.size a + S10000x1.size a := by
  show i ∈ ((View.whole main_v50).slice (win2_3.rect t)).set ↔ _
  rw [View.set_slice_whole, Rect.mem_set_unit]
  exact Iff.rfl

/-- Row `ρ` of the result is in the block of point `ρ / 10000`: the 100 blocks tile the array. -/
theorem cover2 (i : S1000000x1.Idx) :
    ∃ t : Fin cfg2.N, (cfg2.win 3).flush t = true ∧ i ∈ ((cfg2.win 3).blk t).view.set := by
  have hi0 : (i 0).val < 1000000 := (i 0).isLt
  have hi1 : (i 1).val < 1 := (i 1).isLt
  have hN : cfg2.N = 100 := N_2
  let t : Fin cfg2.N := ⟨(i 0).val / 10000, by rw [hN]; omega⟩
  obtain ⟨-, -, -, -, -, -, e0, e1⟩ := idx_facts2 t
  have ht : t.val = (i 0).val / 10000 := rfl
  refine ⟨t, flush2_3 t, ?_⟩
  rw [mem_blk2]
  intro a
  match a with
  | ⟨0, _⟩ => show win2_3.index t (0 : Fin 2) * 10000 ≤ (i 0).val ∧ (i 0).val < win2_3.index t (0 : Fin 2) * 10000 + 10000; rw [e0, ht]; omega
  | ⟨1, _⟩ => show win2_3.index t (1 : Fin 2) * 1 ≤ (i 1).val ∧ (i 1).val < win2_3.index t (1 : Fin 2) * 1 + 1; rw [e1]; omega

/-- THE RESULT ARRAY after the region: the projection of the region's arrays, index by index. -/
theorem region2 (c : Dev nD) :
    ((dat2 (F := Ideal) V c).arrAt 3 cfg2.N : S1000000x1.Idx → EReal)
      = Cert.Sage.proj (V c main_v48) (V c main_arg16) (V c main_v49) :=
  (dat2 (F := Ideal) V c).arrAt_eq_of_cover 3 (Cert.Sage.proj (V c main_v48) (V c main_arg16) (V c main_v49))
    (fun t _ => flushed_eq2 V c t) cover2

end

end Cert.KernelIdeal.RegionValue

end
-- ==== Proof.Bridge.lean ====
/-
  The idealized kernel computes the network.

  Its result buffer ends at what the third region's write-backs leave. Region by region, from the last to the first:
  the third region leaves the projection of its first window, which holds what the second region left; the second
  leaves the 64-feature layer of the neighbourhood mean of what the first left, and of that array itself; the first
  leaves the 4-feature layer of the neighbourhood mean of the node features, and of the node features. The parameter
  windows hold the arguments (the vectors as one-row matrices). Composed, that is `network` of the launch memory.
-/
import proofs.«149538_j9431748182756_1_alg».proof.Proof.KernelIdealFrameP
import proofs.«149538_j9431748182756_1_alg».proof.Proof.RunValue
import proofs.«149538_j9431748182756_1_alg».proof.Proof.HostReads
import proofs.«149538_j9431748182756_1_alg».proof.Proof.Region0
import proofs.«149538_j9431748182756_1_alg».proof.Proof.Region1
import proofs.«149538_j9431748182756_1_alg».proof.Proof.Region2
import proofs.«149538_j9431748182756_1_alg».proof.Proof.Network

set_option maxRecDepth 16384

noncomputable section

namespace Cert.KernelIdeal.Bridge

open Cert.KernelIdeal Cert.KernelIdeal.Gen Cert.KernelIdeal.GenP
open Idealize.ShloMosaic Idealize.ShloMosaic.TcCoe Idealize.SL.Sem
open Cert.Sage Cert.KernelIdeal.HostValue Cert.KernelIdeal.RegionValue

variable (m : (ℓ : Loc nD τ sig) → Buf (Elt Ideal) ℓ) (ρ : Dev nD → PrngReg) (c : Dev nD)

/-- What the first region leaves in its output array: the first layer of the launch memory. -/
theorem first_layer : ((dat0 (F := Ideal) (V1 m ρ) c).arrAt 9 cfg0.N : S1000000x64.Idx → EReal)
    = hidden1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  rw [region0 (V1 m ρ) c, entry0_agg, entry0_arg0, entry0_arg2, entry0_arg4, entry0_v25, entry0_v26, entry0_v27, entry0_v28, entry0_v29]
  rfl

/-- What the second region leaves in its output array: the second layer. -/
theorem second_layer : ((dat1 (F := Ideal) (V3 m ρ) c).arrAt 9 cfg1.N : S1000000x64.Idx → EReal)
    = hidden2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  rw [region1 (V3 m ρ) c, entry1_agg, entry1_h, first_layer, entry1_arg9, entry1_arg11, entry1_v43, entry1_v44, entry1_v45, entry1_v46, entry1_v47]
  rfl

/-- The result buffer's last contents are the network of the launch memory. -/
theorem result_eq : (W6 m ρ c (Proc.devRef .tc main_v50) : S1000000x1.Idx → EReal) = network (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) := by
  refine (W6_arr m ρ c 3).trans ?_
  rw [region2 (V5 m ρ) c, entry2_h, second_layer, entry2_arg16, entry2_v49]
  rfl

/-- The idealized kernel's run: the result buffer ends at the network of the launch memory, the arguments unchanged. -/
theorem run : θ_run defs (onTc (τ := τ) (main (F := Ideal))) ⟨m, fun _ => 0, ρ⟩ (fun r => ∀ c : Dev nD,
      r.2.mem ((c.tc : Thread nD τ).loc main_v50) = network (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c => ⟨(h c).1.trans (result_eq m ρ c), (h c).2⟩) (Cert.KernelIdeal.RunValue.run (F := Ideal) m ρ)

end Cert.KernelIdeal.Bridge

end
-- ==== Proof.lean ====
/-
  Two programs for a two-layer neighbourhood-averaging network on a graph of a million nodes are one function of
  their inputs over the extended reals.

  Each node's features are combined with the mean of its in-neighbours' features through a dense layer with batch
  normalisation and rectification (twice: 4 → 64 → 64 features); a final projection and the logistic function give
  one number per node. The kernel computes the three dense stages in three pipelined regions over row blocks of
  10000 nodes, with the neighbourhood means on the host in between; the reference is one host program.

  At the extended reals the two agree index by index: a change of float format is the identity; a block-wise matrix
  product into a zero accumulator and the host's contraction are the same finite sum; the neighbourhood means are the
  same host operations applied to equal arrays; the logistic function and its expansion `1 / (1 + e^(−z))` are one
  function; and the only rearrangement between the sides is the position of the bias in a sum of three terms, which
  needs commutativity and associativity of addition only — so the finiteness of the inputs is never used.
  The word-level kernel's idealization rewrote nothing, so `preserves` is trivial.
-/
import proofs.«149538_j9431748182756_1_alg».proof.Defs
import proofs.«149538_j9431748182756_1_alg».proof.Proof.Gen.Kernel
import proofs.«149538_j9431748182756_1_alg».proof.Proof.Gen.KernelIdeal
import proofs.«149538_j9431748182756_1_alg».proof.Proof.Gen.ReferenceIdeal
import proofs.«149538_j9431748182756_1_alg».proof.Proof.Gen.ReferenceIdeal.Run
import proofs.«149538_j9431748182756_1_alg».proof.Proof.Gen.ReferenceIdeal.Read
import proofs.«149538_j9431748182756_1_alg».proof.Proof.Gen.Pre_finite_inputs
import proofs.«149538_j9431748182756_1_alg».proof.Proof.KernelFrameP
import proofs.«149538_j9431748182756_1_alg».proof.Proof.KernelIdealFrameP
import proofs.«149538_j9431748182756_1_alg».proof.Proof.Network
import proofs.«149538_j9431748182756_1_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

namespace Claims

theorem frame_k : Cert.frame_Kernel (hKernel := Cert.Kernel.Gen.facts) (hPre_finite_inputs := Cert.Pre_finite_inputs.Gen.facts) :=
  fun m ρ _ => Cert.Kernel.GenP.frame m ρ

theorem frame_ki : Cert.frame_KernelIdeal (hKernelIdeal := Cert.KernelIdeal.Gen.facts) (hPre_finite_inputs := Cert.Pre_finite_inputs.Gen.facts) :=
  fun m ρ _ => Cert.KernelIdeal.GenP.frame m ρ

/-- The reference's frame is its run with the result forgotten. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both runs end with the network of the (agreeing) arguments in their result buffer. -/
theorem algebraic : Cert.algebraic_KernelIdeal_ReferenceIdeal (hKernelIdeal := Cert.KernelIdeal.Gen.facts) (hReferenceIdeal := Cert.ReferenceIdeal.Gen.facts)
    (hPre_finite_inputs := Cert.Pre_finite_inputs.Gen.facts) := by
  intro m ρ m' ρ' _ hagree
  refine ⟨_, Cert.KernelIdeal.Bridge.run m ρ, ?_⟩
  refine (θ_run Cert.ReferenceIdeal.defs _ _).mono (fun _ h c => ⟨(h c).1.trans ?_, (h c).2⟩) (Cert.ReferenceIdeal.Value.run (F := Ideal) m' ρ')
  obtain ⟨e0, e1, e2, e3, e4, e5, e6, e7, e8, e9, e10, e11, e12, e13, e14, e15, e16, e17⟩ := hagree c
  rw [Cert.ReferenceIdeal.Read.val_main_v95_eq, Cert.Sage.ref_network, e0, e1, e2, e3, e4, e5, e6, e7, e8, e9, e10, e11, e12, e13, e14, e15, e16, e17]

end Claims

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, trivial, Claims.algebraic⟩

end Cert.Proof

end
